-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  main_v3
-- ==== Kernel.lean ====
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S256x512 : Shape := ⟨2, ![256, 512]⟩
abbrev S256x1 : Shape := ⟨2, ![256, 1]⟩
abbrev S256x8192 : Shape := ⟨2, ![256, 8192]⟩
abbrev S256 : Shape := ⟨1, ![256]⟩
abbrev S512 : Shape := ⟨1, ![512]⟩
abbrev S1x512 : Shape := ⟨2, ![1, 512]⟩
abbrev S512x8192 : Shape := ⟨2, ![512, 8192]⟩
abbrev S1x8192 : Shape := ⟨2, ![1, 8192]⟩
abbrev S1 : Shape := ⟨1, ![1]⟩
abbrev S1x1 : Shape := ⟨2, ![1, 1]⟩

abbrev nBuf : Space → Nat
  | .hbm => 40
  | .vmem => 5
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S_, .f32⟩
  | .hbm, ⟨3, _⟩ => ⟨S8192, .f32⟩
  | .hbm, ⟨4, _⟩ => ⟨S8192x1, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S8192x512, .f32⟩
  | .hbm, ⟨10, _⟩ => ⟨S8192x512, .f32⟩
  | .hbm, ⟨11, _⟩ => ⟨S8192x512, .bf16⟩
  | .hbm, ⟨12, _⟩ => ⟨S8192x1, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S512, .f32⟩
  | .hbm, ⟨17, _⟩ => ⟨S1x512, .f32⟩
  | .hbm, ⟨18, _⟩ => ⟨S512x8192, .f32⟩
  | .hbm, ⟨19, _⟩ => ⟨S1x8192, .f32⟩
  | .hbm, ⟨20, _⟩ => ⟨S_, .f32⟩
  | .hbm, ⟨21, _⟩ => ⟨S1, .f32⟩
  | .hbm, ⟨22, _⟩ => ⟨S1x1, .f32⟩
  | .hbm, ⟨23, _⟩ => ⟨S1x8192, .f32⟩
  | .hbm, ⟨24, _⟩ => ⟨S1x8192, .f32⟩
  | .hbm, ⟨25, _⟩ => ⟨S1x8192, .f32⟩
  | .hbm, ⟨26, _⟩ => ⟨S_, .f32⟩
  | .hbm, ⟨27, _⟩ => ⟨S1, .f32⟩
  | .hbm, ⟨28, _⟩ => ⟨S1x1, .f32⟩
  | .hbm, ⟨29, _⟩ => ⟨S1x1, .f32⟩
  | .hbm, ⟨30, _⟩ => ⟨S1x8192, .f32⟩
  | .hbm, ⟨31, _⟩ => ⟨S_, .f32⟩
  | .hbm, ⟨32, _⟩ => ⟨S1, .f32⟩
  | .hbm, ⟨33, _⟩ => ⟨S1x1, .f32⟩
  | .hbm, ⟨34, _⟩ => ⟨S1x1, .f32⟩
  | .hbm, ⟨35, _⟩ => ⟨S1x1, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .local _ .vmem, ⟨0, _⟩ => ⟨S256x512, .bf16⟩
  | .local _ .vmem, ⟨1, _⟩ => ⟨S256x512, .bf16⟩
  | .local _ .vmem, ⟨2, _⟩ => ⟨S8192x512, .bf16⟩
  | .local _ .vmem, ⟨3, _⟩ => ⟨S256x1, .f32⟩
  | .local _ .vmem, ⟨4, _⟩ => ⟨S256x1, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_1 : Ref sig .tc := ⟨.hbm, 13, rfl⟩
abbrev main_v10 : Ref sig .tc := ⟨.hbm, 14, rfl⟩
abbrev main_cst_2 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_3 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_4 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_5 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_6 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S8192x512_S8192x512_0_0 : ∀ a, (![0, 0] : Fin 2 → Nat) a + S8192x512.size a ≤ S8192x512.size a
  h_S8192x512 : 0 < S8192x512.numel
  shapeCasts_S8192x512_S8192x512 : S8192x512.ShapeCasts S8192x512
  reduces_S256x8192_S256 : S256x8192.Reduces [1] S256
  shapeCasts_S256_S256x1 : S256.ShapeCasts S256x1
  broadcasts_S256x1_S256x8192 : S256x1.Broadcasts S256x8192
  inb_S256x1_S256x1_0_0 : ∀ a, (![0, 0] : Fin 2 → Nat) a + S256x1.size a ≤ S256x1.size a
  h_S256x1 : 0 < S256x1.numel
  reducesTo_S8192x1_S_d0_1 : S8192x1.ReducesTo [0, 1] S_
  reducesTo_S8192x512_S512_d0 : S8192x512.ReducesTo [0] S512
  bcast_S512_S1x512_1 : S512.BroadcastsInDim S1x512 (![1] : Fin 1 → Fin S1x512.rank)
  transposes_S8192x512_S512x8192_1_0 : S8192x512.Transposes [1, 0] S512x8192
  reducesTo_S1x8192_S1_d1 : S1x8192.ReducesTo [1] S1
  bcast_S1_S1x1_0 : S1.BroadcastsInDim S1x1 (![0] : Fin 1 → Fin S1x1.rank)
  bcast_S1x1_S1x8192_0_1 : S1x1.BroadcastsInDim S1x8192 (![0, 1] : Fin 2 → Fin S1x8192.rank)
  shapeCasts_S1x1_S_ : S1x1.ShapeCasts S_
  dot_S256x512_S8192x512_S256x8192_1_1_0_0_n_n_wf : DotDims.WF S256x512 S8192x512 S256x8192 [1] [1] [0] [0] [] []
  dot_S1x512_S512x8192_S1x8192_1_0_0_1_n_n_wf : DotDims.WF S1x512 S512x8192 S1x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S8192x512.size a
  hwx0_0 : ∀ i : grid0.Coords, EltTy.bits .bf16 = 32 ∨ (Rect.block (s := S8192x512) S256x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x512.size a ≤ S8192x512.size a
  hwx0_1 : ∀ i : grid0.Coords, EltTy.bits .bf16 = 32 ∨ (Rect.block (s := S8192x512) S8192x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S8192x1.size a
  hwx0_2 : ∀ i : grid0.Coords, EltTy.bits .f32 = 32 ∨ (Rect.block (s := S8192x1) S256x1.size (cc0_transform_2 i) (hinb0_2 i)).WholeWords (EltTy.packing .f32)

variable [Facts₀]

def dot_S256x512_S8192x512_S256x8192_1_1_0_0_n_n : DotDims S256x512 S8192x512 S256x8192 where
  lhsContracting := [1]
  rhsContracting := [1]
  lhsNonContracting := [0]
  rhsNonContracting := [0]
  lhsBatch := []
  rhsBatch := []
  wf := dot_S256x512_S8192x512_S256x8192_1_1_0_0_n_n_wf
def dot_S1x512_S512x8192_S1x8192_1_0_0_1_n_n : DotDims S1x512 S512x8192 S1x8192 where
  lhsContracting := [1]
  rhsContracting := [0]
  lhsNonContracting := [0]
  rhsNonContracting := [1]
  lhsBatch := []
  rhsBatch := []
  wf := dot_S1x512_S512x8192_S1x8192_1_0_0_1_n_n_wf

abbrev win0_0 : Pipeline.Window sig grid0 :=
  Pipeline.Window.ofSpec (Memref.whole main_v8) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S8192x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S256x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S8192x8192 : Shape := ⟨2, ![8192, 8192]⟩
abbrev S1x8192 : Shape := ⟨2, ![1, 8192]⟩
abbrev S1 : Shape := ⟨1, ![1]⟩
abbrev S1x1 : Shape := ⟨2, ![1, 1]⟩

abbrev nBuf : Space → Nat
  | .hbm => 63
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S_, .f32⟩
  | .hbm, ⟨3, _⟩ => ⟨S8192, .f32⟩
  | .hbm, ⟨4, _⟩ => ⟨S8192x1, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S8192x512, .f32⟩
  | .hbm, ⟨10, _⟩ => ⟨S8192x512, .f32⟩
  | .hbm, ⟨11, _⟩ => ⟨S8192x8192, .f32⟩
  | .hbm, ⟨12, _⟩ => ⟨S_, .f32⟩
  | .hbm, ⟨13, _⟩ => ⟨S8192, .f32⟩
  | .hbm, ⟨14, _⟩ => ⟨S1x8192, .f32⟩
  | .hbm, ⟨15, _⟩ => ⟨S_, .f32⟩
  | .hbm, ⟨16, _⟩ => ⟨S8192, .f32⟩
  | .hbm, ⟨17, _⟩ => ⟨S_, .f32⟩
  | .hbm, ⟨18, _⟩ => ⟨S8192, .f32⟩
  | .hbm, ⟨19, _⟩ => ⟨S8192, .f32⟩
  | .hbm, ⟨20, _⟩ => ⟨S8192x1, .f32⟩
  | .hbm, ⟨21, _⟩ => ⟨S8192x8192, .f32⟩
  | .hbm, ⟨22, _⟩ => ⟨S8192x8192, .f32⟩
  | .hbm, ⟨23, _⟩ => ⟨S8192x8192, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S8192x1, .f32⟩
  | .hbm, ⟨28, _⟩ => ⟨S8192x8192, .f32⟩
  | .hbm, ⟨29, _⟩ => ⟨S8192x8192, .f32⟩
  | .hbm, ⟨30, _⟩ => ⟨S8192x8192, .f32⟩
  | .hbm, ⟨31, _⟩ => ⟨S8192x8192, .f32⟩
  | .hbm, ⟨32, _⟩ => ⟨S_, .f32⟩
  | .hbm, ⟨33, _⟩ => ⟨S8192, .f32⟩
  | .hbm, ⟨34, _⟩ => ⟨S8192, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S1, .f32⟩
  | .hbm, ⟨41, _⟩ => ⟨S_, .f32⟩
  | .hbm, ⟨42, _⟩ => ⟨S1, .f32⟩
  | .hbm, ⟨43, _⟩ => ⟨S1, .f32⟩
  | .hbm, ⟨44, _⟩ => ⟨S1x1, .f32⟩
  | .hbm, ⟨45, _⟩ => ⟨S1x8192, .f32⟩
  | .hbm, ⟨46, _⟩ => ⟨S1x8192, .f32⟩
  | .hbm, ⟨47, _⟩ => ⟨S1x8192, .f32⟩
  | .hbm, ⟨48, _⟩ => ⟨S_, .f32⟩
  | .hbm, ⟨49, _⟩ => ⟨S1, .f32⟩
  | .hbm, ⟨50, _⟩ => ⟨S1x1, .f32⟩
  | .hbm, ⟨51, _⟩ => ⟨S1x1, .f32⟩
  | .hbm, ⟨52, _⟩ => ⟨S1x8192, .f32⟩
  | .hbm, ⟨53, _⟩ => ⟨S1x8192, .f32⟩
  | .hbm, ⟨54, _⟩ => ⟨S1x8192, .f32⟩
  | .hbm, ⟨55, _⟩ => ⟨S1x8192, .f32⟩
  | .hbm, ⟨56, _⟩ => ⟨S_, .f32⟩
  | .hbm, ⟨57, _⟩ => ⟨S1, .f32⟩
  | .hbm, ⟨58, _⟩ => ⟨S1, .f32⟩
  | .hbm, ⟨59, _⟩ => ⟨S1, .f32⟩
  | .hbm, ⟨60, _⟩ => ⟨S1, .f32⟩
  | .hbm, ⟨61, _⟩ => ⟨S_, .f32⟩
  | .hbm, ⟨62, _⟩ => ⟨S_, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_1 : Ref sig .tc := ⟨.hbm, 12, rfl⟩
abbrev main_v9 : Ref sig .tc := ⟨.hbm, 13, rfl⟩
abbrev main_v10 : Ref sig .tc := ⟨.hbm, 14, rfl⟩
abbrev main_call0_cst : Ref sig .tc := ⟨.hbm, 15, rfl⟩
abbrev main_call0_v0 : Ref sig .tc := ⟨.hbm, 16, rfl⟩
abbrev main_call0_cst_0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_cst_1 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_v14 : Ref sig .tc := ⟨.hbm, 33, rfl⟩
abbrev main_v15 : Ref sig .tc := ⟨.hbm, 34, rfl⟩
abbrev main_cst_3 : Ref sig .tc := ⟨.hbm, 35, rfl⟩
abbrev main_v16 : Ref sig .tc := ⟨.hbm, 36, rfl⟩
abbrev main_cst_4 : Ref sig .tc := ⟨.hbm, 37, rfl⟩
abbrev main_v17 : Ref sig .tc := ⟨.hbm, 38, rfl⟩
abbrev main_call1_cst : Ref sig .tc := ⟨.hbm, 39, rfl⟩
abbrev main_call1_v0 : Ref sig .tc := ⟨.hbm, 40, rfl⟩
abbrev main_call1_cst_0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_v6 : Ref sig .tc := ⟨.hbm, 47, rfl⟩
abbrev main_call1_cst_1 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_cst_5 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_cst_6 : Ref sig .tc := ⟨.hbm, 61, rfl⟩
abbrev main_v25 : Ref sig .tc := ⟨.hbm, 62, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  reducesTo_S8192x8192_S8192_d0 : S8192x8192.ReducesTo [0] S8192
  bcast_S8192_S1x8192_1 : S8192.BroadcastsInDim S1x8192 (![1] : Fin 1 → Fin S1x8192.rank)
  reducesTo_S8192x8192_S8192_d1 : S8192x8192.ReducesTo [1] S8192
  bcast_S_S8192 : S_.BroadcastsInDim S8192 (![] : Fin 0 → Fin S8192.rank)
  bcast_S8192x1_S8192x8192_0_1 : S8192x1.BroadcastsInDim S8192x8192 (![0, 1] : Fin 2 → Fin S8192x8192.rank)
  reducesTo_S8192_S_d0 : S8192.ReducesTo [0] S_
  reducesTo_S1x8192_S1_d1 : S1x8192.ReducesTo [1] S1
  bcast_S_S1 : S_.BroadcastsInDim S1 (![] : Fin 0 → Fin S1.rank)
  bcast_S1_S1x1_0 : S1.BroadcastsInDim S1x1 (![0] : Fin 1 → Fin S1x1.rank)
  bcast_S1x1_S1x8192_0_1 : S1x1.BroadcastsInDim S1x8192 (![0, 1] : Fin 2 → Fin S1x8192.rank)
  reducesTo_S1_S_d0 : S1.ReducesTo [0] S_
  dot_S8192x512_S8192x512_S8192x8192_1_1_0_0_n_n_wf : DotDims.WF S8192x512 S8192x512 S8192x8192 [1] [1] [0] [0] [] []

variable [Facts₀]

def dot_S8192x512_S8192x512_S8192x8192_1_1_0_0_n_n : DotDims S8192x512 S8192x512 S8192x8192 where
  lhsContracting := [1]
  rhsContracting := [1]
  lhsNonContracting := [0]
  rhsNonContracting := [0]
  lhsBatch := []
  rhsBatch := []
  wf := dot_S8192x512_S8192x512_S8192x8192_1_1_0_0_n_n_wf

class Facts : Prop extends Facts₀ where

variable [Facts]
-- ==== Proof.Kernel.Body.lean ====
/-
  The body of the entropy kernel, at any float instance: the kernel function run once on whole staging buffers,
  and the proof data of its one pipeline.

  The pallas_call has three windows. Window 0 is a 256-row block of the normalized prototype matrix (the "query
  rows" of grid point t: rows 256 t … 256 t + 255), window 1 is the WHOLE normalized matrix (one constant block,
  fetched once), window 2 is the 256×1 block of row entropies the point writes back. Windows 0 and 1 stage the SAME
  array, which the body only reads: the array's full share is dealt to them as its left and right halves.
  The body loads both inputs whole, computes one 256×1 vector (the payload `k0_pay1` of the two loads), and
  stores it over the whole output buffer: after the body the output buffer is that payload, whatever it held.
-/
import proofs.«125946_j49383533969545_2_alg».proof.Proof.Gen.Kernel.Launch
import proofs.«125946_j49383533969545_2_alg».proof.Proof.Gen.Kernel.Skeleton
import proofs.«125946_j49383533969545_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch memory after the eleven host operations that
    normalize the rows (square, row sum, square root, clamp, divide, change of format). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the host lines after it: it reduces to the region
    continued by the later lines, entered at the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The lines after the region touch unscoped TensorCore buffers only. -/
theorem sfx_sub : ∀ ops ∈ ([hostOps1] : List (List (HloOp τ sig (Elt F)))), ∀ op ∈ ops,
    op.bufs ⊆ Pipeline.ucRefs τ sig := by
  intro ops hops op hop
  simp only [List.mem_cons, List.mem_nil_iff, or_false] at hops
  rcases hops with rfl
  exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- And write no array of the pipeline: each writes only its own result buffer, and neither the normalized matrix
    nor the vector of row entropies is a result of a line after the region. -/
theorem hostOps1_keeps : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  subst hops
  exact (List.forall_iff_forall_mem.mp hostOps1_keeps) op hop

/-- No host operation before the region writes the argument array: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The row-block window's staging buffer holds its block at every point (it is fetched at every point), for any
    proof data whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The whole-matrix window's staging buffer holds the matrix at every point: fetched at the first point, and its
    block index never moves after. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it leaves -/

abbrev r0_0 : Rect S256x512 := Rect.unit (s := S256x512) ![0, 0] S256x512.size inb_S256x512_S256x512_0_0
abbrev r0_1 : Rect S8192x512 := Rect.unit (s := S8192x512) ![0, 0] S8192x512.size inb_S8192x512_S8192x512_0_0
abbrev r0_2 : Rect S256x1 := Rect.unit (s := S256x1) ![0, 0] S256x1.size inb_S256x1_S256x1_0_0

/-- The output window's staging buffer after the body, from the two input blocks: its one store, of the payload of
    the two whole loads, over the whole buffer. -/
def out0_2 (x0 : Vec F S256x512 .bf16) (x1 : Vec F S8192x512 .bf16) : Vec F S256x1 .f32 :=
  View.canon [⟨r0_2, k0_pay1 (View.ld x0 r0_0) (View.ld x1 r0_1)⟩]

/-- The one store covers the buffer. -/
theorem cover0_2 (p0 : Vec F S256x1 .f32) (y : S256x1.Idx) :
    ∃ pc ∈ ([⟨r0_2, p0⟩] : List (View.Piece (Elt F) S256x1 .f32)), y ∈ pc.1.set :=
  View.cover_of_tiled [⟨r0_2, p0⟩] S256x1.size (by rfl) y

/-! ## The body's triple -/

set_option maxHeartbeats 1000000 in
/-- The kernel body on whole staging memrefs, the inputs' at contents `x0`, `x1` and the output's at anything, runs to
    the continuation holding the inputs' as they were and the output's at `out0_2 x0 x1`. -/
theorem sound_kernel (c : Dev nD) (E : Set ℕ) (i : grid0.Coords)
    (arg1 : Memref sig .tc .vmem S256x512 .bf16) (harg1 : arg1.IsWhole)
    (arg2 : Memref sig .tc .vmem S8192x512 .bf16) (harg2 : arg2.IsWhole)
    (arg3 : Memref sig .tc .vmem S256x1 .f32) (harg3 : arg3.IsWhole)
    (x0 : Vec F S256x512 .bf16) (x1 : Vec F S8192x512 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__entropy_kernel i arg1 harg1 arg2 harg2 arg3 harg3) K := by
  simp only [cc0__entropy_kernel_eq_skeleton]; unfold cc0__entropy_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the one pipeline on core `c`: the arrays as the region finds them; after the body at point `t`
    each input's buffer at its block and the output's at `out0_2` of the two input blocks; the invariant the scoped
    rest and the generator register, untouched; nothing owed; the two input windows hold the left and the right half
    of their common array's share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so `sound_kernel` applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Frame

end
-- ==== Proof.LibSharedFrame.lean ====
/-
  The frame run of a one-region TensorCore program whose @main continues after the region with straight lines of host
  operations, for a pipeline whose windows may SHARE an array (one operand handed to the kernel through several input
  windows): the arrays behind the windows need not be pairwise distinct buffers.

  With distinct arrays the buffers behind them are the windows' arrays, one for one. When windows share an array the
  DISTINCT buffers behind the arrays (`arrBufs`) are fewer than the windows, and how each buffer's full share is dealt among
  the windows on it is for the caller to say: once at the region's entry (the buffers make the proof data's arrays) and,
  both ways, at the region's exit (the proof data's arrays are the buffers again, at named contents). Between the two the
  lines after the region run within ALL the unscoped TensorCore buffers, held whole — the buffers behind the arrays at
  their exit contents, every other one at its entry contents —, write no array, and leave each buffer at the lines'
  `StableHlo.after` from those contents.
-/
import Idealize.ShloMosaic.Lib.Pipeline.FrameSuffix

noncomputable section

namespace Cert.SharedFrame

open Idealize.ShloMosaic Idealize.ShloMosaic.Pipeline
open Idealize.SL
open Idealize.SL.BI (sProp bigSep bigSep_congr bigSep_sdiff_split)
open scoped Idealize.SL.BI
open Idealize.SL.BI.BIBase Idealize.SL.BI.Laws Idealize.SL.Sem Idealize.SL.ProofMode
open Idealize.SL.RA
open Idealize.ShloMosaic.TcCoe
open Idealize.ShloMosaic.Rounds

variable {nD : Nat} {τ : Topo} {sig : RefSig} {Val : EltTy → Type}
variable {Ix : Type} [DecidableEq Ix] {Name : Type} [DecidableEq Name] {U : Type} [URA U] {Lvl : Type}

/-! ## The lines after the region, within every unscoped buffer -/

section Tail

variable {Λ₀ : Idealize.SL.Sem.Labels} {P : Type}
variable (pcs : P → PCfg sig Λ₀ Val) (defs₀ : Defs nD τ sig Val Λ₀) (𝒱₀ : Variants)

local notation "𝕄" => MT nD τ sig Ix Val Name U Lvl
local notation "𝔻" => Pipeline.defs pcs defs₀
local notation "𝕍" => Variants.lift 𝒱₀

/-- Every unscoped TensorCore buffer held whole at `Wv` is the distinct buffers behind the windows' arrays at `Wv` and
    the buffers that bypass the region at `Wv` — the arrays distinct or not (`hun`: they are unscoped). -/
theorem held_ucRefs_split {gr : Nat} {W : Nat} (win : Fin W → WinSpec sig gr) (hun : ∀ w, (arrRef win w).isScoped = false)
    (c : Dev nD) (Wv : Valuation τ sig Val) :
    (StableHlo.held (c.tc : Thread nD τ) (ucRefs τ sig) Wv : sProp 𝕄)
      = iprop(arrBufs win c (fun b => Wv (Proc.devRef .tc b)) ∗ unscopedRest win c (fun b => Wv (Proc.devRef .tc b))) := by
  classical
  have hA : Finset.univ.image (arrRef win) ⊆ Finset.univ.filter fun b : Ref sig .tc => ¬ b.isScoped := fun b hb => by
    obtain ⟨w, -, rfl⟩ := Finset.mem_image.mp hb
    exact Finset.mem_filter.mpr ⟨Finset.mem_univ _, by simp [hun w]⟩
  rw [← unscopedBufs_held (Ix := Ix) (Name := Name) (U := U) (Lvl := Lvl) c Wv]
  unfold unscopedBufs unscopedRest arrBufs
  rw [bigSep_sdiff_split hA]
  rfl

/-- THE LINES AFTER THE REGION when windows may share an array. The caller holds the region boundary, some resource `A`
    that IS the distinct buffers behind the arrays whole at contents `Wv` (`hA₁`, `hA₂`: both ways), and the bypassing
    buffers at `V₀`, with which `Wv` agrees off the arrays (`hrest`). The lines touch unscoped TensorCore buffers only
    (`hsub`) and write no array (`hkeep`); they hand back `A` and the bypassing buffers at `StableHlo.after` of the
    lines from `Wv`. -/
theorem tail_seqs_shared [Preorder Lvl] {gr : Nat} {W : Nat} (win : Fin W → WinSpec sig gr) (hun : ∀ w, (arrRef win w).isScoped = false)
    (c : Dev nD) (V₀ Wv : Valuation τ sig Val)
    (hrest : ∀ b : Ref sig .tc, (∀ w, arrRef win w ≠ b) → Wv (Proc.devRef .tc b) = V₀ (Proc.devRef .tc b))
    (opss : List (List (HloOp τ sig Val)))
    (hsub : ∀ ops ∈ opss, ∀ op ∈ ops, op.bufs ⊆ ucRefs τ sig)
    (hfresh : ∀ ops ∈ opss, ∀ op ∈ ops, op.fresh = ∅)
    (hkeep : ∀ ops ∈ opss, ∀ op ∈ ops, ∀ w, Proc.devRef .tc (arrRef win w) ∉ op.writes)
    (A : sProp 𝕄)
    (hA₁ : A ⊢ arrBufs win c (fun b => Wv (Proc.devRef .tc b)))
    (hA₂ : (arrBufs win c (fun b => Wv (Proc.devRef .tc b)) : sProp 𝕄) ⊢ A)
    (Q' : PUnit → sProp 𝕄) :
    iprop((iprop(A ∗ unscopedRest win c (fun b => StableHlo.after opss.flatten Wv (Proc.devRef .tc b))) -∗ Q' ⟨⟩)
        ∗ boundary (c.tc : Thread nD τ) ∗ A ∗ unscopedRest win c (fun b => V₀ (Proc.devRef .tc b)))
      ⊢ wp frame (wpE 𝔻 𝕍 (c.tc : Thread nD τ) none) Set.univ (chain (opss.map StableHlo.seq)) Q' := by
  classical
  -- off the arrays the exit contents are the entry contents
  have hR : (unscopedRest win c (fun b => V₀ (Proc.devRef .tc b)) : sProp 𝕄) = unscopedRest win c (fun b => Wv (Proc.devRef .tc b)) := by
    unfold unscopedRest
    exact bigSep_congr fun b hb => by
      beta_reduce
      rw [hrest b fun w e => (Finset.mem_sdiff.mp hb).2 (Finset.mem_image.mpr ⟨w, Finset.mem_univ _, e⟩)]
  -- no line writes an array: the buffers behind the arrays keep their contents
  have hB : (arrBufs win c (fun b => StableHlo.after opss.flatten Wv (Proc.devRef .tc b)) : sProp 𝕄)
      = arrBufs win c (fun b => Wv (Proc.devRef .tc b)) := by
    unfold arrBufs
    exact bigSep_congr fun b hb => by
      obtain ⟨w, -, rfl⟩ := Finset.mem_image.mp hb
      beta_reduce
      rw [StableHlo.after_of_forall_not_mem _ _ fun op hop => ?_]
      obtain ⟨ops, hops, hop⟩ := List.mem_flatten.mp hop
      exact hkeep ops hops op hop w
  have hW := held_ucRefs_split (Ix := Ix) (Name := Name) (U := U) (Lvl := Lvl) win hun c Wv
  have hW' := held_ucRefs_split (Ix := Ix) (Name := Name) (U := U) (Lvl := Lvl) win hun c (StableHlo.after opss.flatten Wv)
  rw [hB] at hW'
  rw [← List.append_nil (opss.map StableHlo.seq), hR]
  iintro ⟨Hk, Hb, HA, HZ⟩
  iapply (wp_seqs_then pcs defs₀ 𝒱₀ c (ucRefs τ sig) [] opss hsub hfresh Wv) $$ [Hb HA HZ]
  · rw [hW]
    isplitl [Hb]; · iexact Hb
    isplitl [HA]; · iapply hA₁; iexact HA
    iexact HZ
  iintro Hb
  rw [chain_nil, wp_pure, hW']
  imodintro
  iapply Hk
  icases Hb with ⟨-, HA, HZ⟩
  isplitl [HA]; · iapply hA₂; iexact HA
  iexact HZ

end Tail

/-! ## The frame run around the region -/

section Frame

variable {Λ₀ : Idealize.SL.Sem.Labels} {P : Type} [Fintype P] [DecidableEq P] [∀ e, Nonempty (Val e)]

local notation "𝕄" => MT nD τ sig Unit Val ℕ (UR sig nD τ) ℕ

/-- THE FRAME RUN of a kernel of the class whose @main continues after the region with the host lines `opss` (`hmain`), for a
    pipeline that prefetches nothing and whose windows may SHARE ARRAYS (`hw`: the arrays unscoped, not necessarily distinct).
    In place of every array held at the full share, the caller says how the distinct buffers behind the arrays, whole at
    the entry contents `V₀ c`, make the proof data's arrays at entry (`hsplit`), and that at the region's exit the proof
    data's arrays ARE those buffers whole at contents `W c` (`hjoin`), every buffer that is no array holding under `W c` what
    it held at entry (`hWrest`). The lines touch unscoped TensorCore buffers only (`hsub`) and write no array (`hkeep`).
    The post is `FramePost` at the lines' `StableHlo.after` from `W c`: every window's array at `Dat.arrAt … N`, every
    other unscoped buffer at what the lines leave it from the exit contents. -/
theorem θ_run_frame_around_shared
    (cfgs : P → Cfg sig Λ₀) (dats : (p : P) → (c : Dev nD) → Dat τ Val Unit ℕ (UR sig nD τ) ℕ (cfgs p) c) (p : P)
    (hcell : Function.Injective (cellOf (nD := nD) (τ := τ) cfgs))
    (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V₀ : Dev nD → Valuation τ sig Val) (opss : List (List (HloOp τ sig Val)))
    (hsub : ∀ ops ∈ opss, ∀ op ∈ ops, op.bufs ⊆ ucRefs τ sig)
    (hfresh : ∀ ops ∈ opss, ∀ op ∈ ops, op.fresh = ∅)
    (hkeep : ∀ ops ∈ opss, ∀ op ∈ ops, ∀ w, Proc.devRef .tc (arrRef (cfgs p).spec w) ∉ op.writes)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hsplit : ∀ c, arrBufs (cfgs p).spec c (fun b => V₀ c (Proc.devRef .tc b)) ⊢ (dats p c).arrays ((dats p c).arrAt · 0))
    (W : Dev nD → Valuation τ sig Val)
    (hjoin : ∀ c, (dats p c).arrays ((dats p c).arrAt · (cfgs p).N) ⊣⊢ arrBufs (cfgs p).spec c (fun b => W c (Proc.devRef .tc b)))
    (hWrest : ∀ c (b : Ref sig .tc), (∀ w, arrRef (cfgs p).spec w ≠ b) → W c (Proc.devRef .tc b) = V₀ c (Proc.devRef .tc b))
    (hΦ : ∀ c t, (dats p c).Φ t = ΦA (cfgs p).spec c) :
    θ_run (Pipeline.defs (fun q => (cfgs q).toPCfg (Val := Val)) defs₀) (onTc main) (s₀ m g)
      (FramePost cfgs dats p (fun c b => StableHlo.after opss.flatten (W c) (Proc.devRef .tc b))) := by
  classical
  exact θ_run_region_pf_tail (fun q => (cfgs q).toPCfg (Val := Val)) (fun q => (cfgs q).toPCfg_adm) dats () hcell p hw
    (OwnSemFacts.none (cfgs p).spec) (PreFacts.none _) emb₁ defs₀ 𝒱₀ m g main
    (fun _ => chain (opss.map StableHlo.seq)) hbody hne harr hstage howed
    (G := fun _ => iprop(emp)) (u₀ := initOf (cells cfgs hcell) (launchToks cfgs hcell))
    (hu₀ := by
      iintro Hu; imodintro
      isplitl [Hu]; · iapply (show (ownU _ : sProp 𝕄) ⊢ BI.own (emb₁ (initOf (cells cfgs hcell) (launchToks cfgs hcell))) from .rfl); iexact Hu
      iapply (show (BI.emp : sProp 𝕄) ⊢ bigSep Finset.univ (fun _ : Dev nD => (BI.emp : sProp 𝕄)) from by rw [BI.bigSep_emp_const])
      iempintro)
    (V := fun c b => V₀ c (Proc.devRef .tc b)) (hmain := hmain)
    (hsplit := hsplit)
    (hpf := fun _ k => k.elim0)
    (X := fun c => iprop(∃ r, prngReg c r)) (Y := fun c => iprop(∃ r, prngReg c r))
    (Z := fun c => unscopedRest (Ix := Unit) (Name := ℕ) (U := UR sig nD τ) (Lvl := ℕ) (cfgs p).spec c (fun b => V₀ c (Proc.devRef .tc b)))
    (Z' := fun c => unscopedRest (Ix := Unit) (Name := ℕ) (U := UR sig nD τ) (Lvl := ℕ) (cfgs p).spec c
      (fun b => StableHlo.after opss.flatten (W c) (Proc.devRef .tc b)))
    (hX := fun c => by
      rw [unscopedRestP_none]
      iintro ⟨HU, -, -, -, Hp, -⟩; imodintro
      isplitl [Hp]; · iexists _; iexact Hp
      iexact HU)
    (hin := fun c => by
      rw [hΦ]; unfold ΦA
      iintro ⟨Hp, -, Hr⟩
      isplitl [Hr] <;> iassumption)
    (hout := fun c => by
      rw [hΦ, ownSems0_none]; unfold ΦA
      iintro ⟨Hr, Hp⟩
      isplitl [Hp]; · iexact Hp
      isplitr; · iempintro
      iexact Hr)
    (htail := fun c Q' =>
      tail_seqs_shared (fun q => (cfgs q).toPCfg (Val := Val)) defs₀ 𝒱₀ (cfgs p).spec hw.arr_unscoped c (V₀ c) (W c) (hWrest c)
        opss hsub hfresh hkeep _ (hjoin c).mp (hjoin c).mpr Q')
    (QY := fun c s => ∀ b ∈ restRefs sig (cfgs p).spec,
      s.mem ((c.tc : Thread nD τ).loc b) = StableHlo.after opss.flatten (W c) (Proc.devRef .tc b))
    (hY := fun c s' => by
      iintro ⟨-, HU, HSI⟩
      unfold unscopedRest
      imodintro
      iapply (pointsTo_read_all (restRefs sig (cfgs p).spec) (fun b => (c.tc : Thread nD τ).loc b)
        (fun b => StableHlo.after opss.flatten (W c) (Proc.devRef .tc b)) s')
      isplitl [HU] <;> iassumption)
    (hQ := fun s h c => ⟨(h c).1, (h c).2.2⟩)

end Frame

end Cert.SharedFrame

end
-- ==== Proof.Kernel.Launch.lean ====
/-
  The launch of the entropy kernel's one pipeline, whose two input windows stage the SAME array, and the frame of @main.

  The pipeline's windows sit on two distinct buffers: the normalized matrix (windows 0 and 1, both inputs) and the
  vector of row entropies (window 2, the output). At the region's entry the matrix's full share is dealt to the two
  input windows as its left and right halves, and the output window takes the vector whole. An input is never written
  back, so at the region's exit the two halves still hold the matrix as the region found it and join to the full share
  again, and the vector holds what the write-backs of all the grid's points left. The contents at the exit are thus
  the entry contents everywhere but at the vector. The host lines after the region run from there; they write neither
  the argument array nor any array of the pipeline.
-/
import proofs.«125946_j49383533969545_2_alg».proof.Proof.Kernel.Body
import proofs.«125946_j49383533969545_2_alg».proof.Proof.LibSharedFrame

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at the region's exit -/

/-- Core `c`'s buffer contents when the region is left: the vector of row entropies at what the write-backs of every
    point of the grid left in it, every other buffer at what the region found. -/
def W (c : Dev nD) : Valuation τ sig (Elt F) :=
  Function.update (V0 m c) (Proc.devRef .tc main_v9) ((dats m 0 c).arrAt 2 cfg0.N)

/-- At the vector of row entropies they are the output array's final contents. -/
theorem W_main_v9 (c : Dev nD) : W m c (Proc.devRef .tc main_v9) = (dats m 0 c).arrAt 2 cfg0.N :=
  Function.update_self _ _ _

/-- At any other buffer they are the entry contents. -/
theorem W_of_ne (c : Dev nD) (b : Ref sig .tc) (h : b ≠ main_v9) : W m c (Proc.devRef .tc b) = V m c b :=
  Function.update_of_ne (StableHlo.devRef_ne_of_ne h) _ _

/-! ## The buffers behind the arrays, and the arrays window by window -/

/-- The distinct buffers behind the three windows' arrays are two: the normalized matrix and the vector of row
    entropies. -/
theorem arrBufs_eq (c : Dev nD) (G : (b : Ref sig .tc) → Buf (Elt F) ((c.tc : Thread nD τ).loc b)) :
    (Pipeline.arrBufs spec0 c G : sProp 𝕄)
      = iprop((((c.tc : Thread nD τ).loc main_v8) ↦{fullShare} G main_v8) ∗ (((c.tc : Thread nD τ).loc main_v9) ↦{fullShare} G main_v9)) := by
  unfold Pipeline.arrBufs
  exact bigSep_eq_bigSepL_of_eq [main_v8, main_v9] (by decide) (by decide) _

/-- The proof data's arrays, window by window: the matrix at the left half of its share for window 0 and at the right
    half for window 1, the vector at the full share for window 2, each array a whole buffer. -/
theorem arrays_eq (c : Dev nD) (G : (w : Fin cfg0.W) → Buf (Elt F) ((cfg0.win w).arr.view.loc (c.tc : Thread nD τ))) :
    (dats m 0 c).arrays G
      = iprop((((c.tc : Thread nD τ).loc main_v8) ↦{fullShare.left} G 0) ∗ (((c.tc : Thread nD τ).loc main_v8) ↦{fullShare.right} G 1)
          ∗ (((c.tc : Thread nD τ).loc main_v9) ↦{fullShare} G 2)) := by
  unfold Dat.arrays
  -- windows 0 and 1 are on one array, so their element sets are one set: every index of it, the array being whole
  rw [bigSep_W0, (arr_whole0 0).set_eq_univ, (arr_whole0 2).set_eq_univ]
  rfl

/-- An input window's array is never written back: it holds the matrix as the region found it at every point. -/
theorem arrAt0 (c : Dev nD) (n : ℕ) : (dats m 0 c).arrAt 0 n = V m c main_v8 :=
  (Pipeline.Dat.arrAt_in (dats m 0 c) 0 rfl n).trans (A_eq m c 0)
theorem arrAt1 (c : Dev nD) (n : ℕ) : (dats m 0 c).arrAt 1 n = V m c main_v8 :=
  (Pipeline.Dat.arrAt_in (dats m 0 c) 1 rfl n).trans (A_eq m c 1)
/-- The output window's array is the vector as the region found it before any write-back. -/
theorem arrAt2_zero (c : Dev nD) : (dats m 0 c).arrAt 2 0 = V m c main_v9 := A_eq m c 2

/-! ## Dealing the shares at entry, joining them at exit -/

/-- At the region's entry the two buffers, whole at the entry contents, make the proof data's arrays: the matrix's full
    share splits into the halves the two input windows hold. -/
theorem hsplit (c : Dev nD) :
    (Pipeline.arrBufs spec0 c (V m c) : sProp 𝕄) ⊢ (dats m 0 c).arrays ((dats m 0 c).arrAt · 0) := by
  rw [arrBufs_eq, arrays_eq, arrAt0, arrAt1, arrAt2_zero]
  iintro ⟨H8, H9⟩
  ihave H := (pointsTo_share (PosShare.mem_left_op_right fullShare)).1 $$ H8
  icases H with ⟨Hl, Hr⟩
  isplitl [Hl]; · iexact Hl
  isplitl [Hr]; · iexact Hr
  iexact H9

/-- At the region's exit the proof data's arrays are the two buffers whole at the exit contents, and conversely: the
    halves of the matrix's share, both still at the entry contents, join. -/
theorem hjoin (c : Dev nD) :
    (dats m 0 c).arrays ((dats m 0 c).arrAt · cfg0.N) ⊣⊢ (Pipeline.arrBufs spec0 c (fun b => W m c (Proc.devRef .tc b)) : sProp 𝕄) := by
  rw [arrBufs_eq, arrays_eq, arrAt0, arrAt1, W_main_v9, W_of_ne m c main_v8 (by decide)]
  constructor
  · iintro ⟨Hl, Hr, H9⟩
    isplitr [H9]
    · iapply (pointsTo_share (PosShare.mem_left_op_right fullShare)).2
      isplitl [Hl] <;> iassumption
    · iexact H9
  · iintro ⟨H8, H9⟩
    ihave H := (pointsTo_share (PosShare.mem_left_op_right fullShare)).1 $$ H8
    icases H with ⟨Hl, Hr⟩
    isplitl [Hl]; · iexact Hl
    isplitl [Hr]; · iexact Hr
    iexact H9

/-! ## The run and the frame -/

/-- At the compiled mesh, for any values, from any memory with zero counters: every weakly fair execution of @main on the
    TensorCores terminates, and every final state has every array of the pipeline at what the library computes from the
    proof data and every other unscoped buffer as the lines after the region leave it from the exit contents. -/
theorem run_main : θ_run defs (onTc (τ := τ) (main (F := F))) (s₀ m ρ)
    (Pipeline.FramePost cfgs (dats m) 0 (fun c b => StableHlo.after (List.flatten [hostOps1]) (W m c) (Proc.devRef .tc b))) :=
  Cert.SharedFrame.θ_run_frame_around_shared cfgs (dats m) (0 : Fin 1) cellOf_inj winFacts₀0 block_pos0 arr_whole0 stage_whole0
    defs₀ Variants.none m ρ main
    (hbody := fun c => (body_obligation m c).loose) (howed := fun _ _ => rfl)
    (V₀ := V0 m) (opss := [hostOps1]) (hsub := sfx_sub) (hfresh := sfx_fresh) (hkeep := sfx_keeps)
    (hmain := hmain m Variants.none) (hsplit := hsplit m) (W := W m) (hjoin := hjoin m)
    (hWrest := fun c b hb => W_of_ne m c b fun e => hb 2 e.symm) (hΦ := fun _ _ => rfl)

/-- The lines after the region are one stretch. -/
theorem flatten_sfx : List.flatten [(hostOps1 : List (HloOp τ sig (Elt F)))] = hostOps1 := by
  simp only [List.flatten_cons, List.flatten_nil, List.append_nil]

/-- No host operation after the region writes the argument array, and the region leaves it as it found it: it ends as
    launched. -/
theorem after_main_arg0 (c : Dev nD) :
    StableHlo.after (List.flatten [hostOps1]) (W m c) (Proc.devRef .tc main_arg0) = m ((c : Thread nD τ).loc main_arg0) := by
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    W_of_ne m c main_arg0 (by decide)]
  exact V_main_arg0 m c

/-- THE FRAME at any float instance: every weakly fair execution of @main terminates and leaves the argument array as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c =>
    ((h c).2 main_arg0 (Pipeline.mem_restRefs_of main_arg0 (by decide) (by decide))).trans (after_main_arg0 m c)) (run_main m ρ)

/-- The same run read at the result buffer too: it ends at what the lines after the region compute from the exit
    contents. -/
theorem result : θ_run defs (onTc (τ := τ) (main (F := F))) ⟨m, fun _ => 0, ρ⟩ (fun r => ∀ c : Dev nD,
      r.2.mem ((c.tc : Thread nD τ).loc main_v30) = StableHlo.after hostOps1 (W m c) (Proc.devRef .tc main_v30)
      ∧ r.2.mem ((c.tc : Thread nD τ).loc main_arg0) = m ((c.tc : Thread nD τ).loc main_arg0)) :=
  (θ_run defs _ _).mono (fun _ h c =>
    ⟨((h c).2 main_v30 (Pipeline.mem_restRefs_of main_v30 (by decide) (by decide))).trans
        (congrArg (fun l => StableHlo.after l (W m c) (Proc.devRef .tc main_v30)) flatten_sfx),
      ((h c).2 main_arg0 (Pipeline.mem_restRefs_of main_arg0 (by decide) (by decide))).trans (after_main_arg0 m c)⟩) (run_main m ρ)

end Cert.Kernel.Frame

end
-- ==== Proof.KernelIdeal.Body.lean ====
/-
  The body of the entropy kernel, at any float instance: the kernel function run once on whole staging buffers,
  and the proof data of its one pipeline.

  The pallas_call has three windows. Window 0 is a 256-row block of the normalized prototype matrix (the "query
  rows" of grid point t: rows 256 t … 256 t + 255), window 1 is the WHOLE normalized matrix (one constant block,
  fetched once), window 2 is the 256×1 block of row entropies the point writes back. Windows 0 and 1 stage the SAME
  array, which the body only reads: the array's full share is dealt to them as its left and right halves.
  The body loads both inputs whole, computes one 256×1 vector (the payload `k0_pay1` of the two loads), and
  stores it over the whole output buffer: after the body the output buffer is that payload, whatever it held.
-/
import proofs.«125946_j49383533969545_2_alg».proof.Proof.Gen.KernelIdeal.Launch
import proofs.«125946_j49383533969545_2_alg».proof.Proof.Gen.KernelIdeal.Skeleton
import proofs.«125946_j49383533969545_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch memory after the eleven host operations that
    normalize the rows (square, row sum, square root, clamp, divide, change of format). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the host lines after it: it reduces to the region
    continued by the later lines, entered at the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The lines after the region touch unscoped TensorCore buffers only. -/
theorem sfx_sub : ∀ ops ∈ ([hostOps1] : List (List (HloOp τ sig (Elt F)))), ∀ op ∈ ops,
    op.bufs ⊆ Pipeline.ucRefs τ sig := by
  intro ops hops op hop
  simp only [List.mem_cons, List.mem_nil_iff, or_false] at hops
  rcases hops with rfl
  exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- And write no array of the pipeline: each writes only its own result buffer, and neither the normalized matrix
    nor the vector of row entropies is a result of a line after the region. -/
theorem hostOps1_keeps : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  subst hops
  exact (List.forall_iff_forall_mem.mp hostOps1_keeps) op hop

/-- No host operation before the region writes the argument array: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The row-block window's staging buffer holds its block at every point (it is fetched at every point), for any
    proof data whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The whole-matrix window's staging buffer holds the matrix at every point: fetched at the first point, and its
    block index never moves after. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it leaves -/

abbrev r0_0 : Rect S256x512 := Rect.unit (s := S256x512) ![0, 0] S256x512.size inb_S256x512_S256x512_0_0
abbrev r0_1 : Rect S8192x512 := Rect.unit (s := S8192x512) ![0, 0] S8192x512.size inb_S8192x512_S8192x512_0_0
abbrev r0_2 : Rect S256x1 := Rect.unit (s := S256x1) ![0, 0] S256x1.size inb_S256x1_S256x1_0_0

/-- The output window's staging buffer after the body, from the two input blocks: its one store, of the payload of
    the two whole loads, over the whole buffer. -/
def out0_2 (x0 : Vec F S256x512 .bf16) (x1 : Vec F S8192x512 .bf16) : Vec F S256x1 .f32 :=
  View.canon [⟨r0_2, k0_pay1 (View.ld x0 r0_0) (View.ld x1 r0_1)⟩]

/-- The one store covers the buffer. -/
theorem cover0_2 (p0 : Vec F S256x1 .f32) (y : S256x1.Idx) :
    ∃ pc ∈ ([⟨r0_2, p0⟩] : List (View.Piece (Elt F) S256x1 .f32)), y ∈ pc.1.set :=
  View.cover_of_tiled [⟨r0_2, p0⟩] S256x1.size (by rfl) y

/-! ## The body's triple -/

set_option maxHeartbeats 1000000 in
/-- The kernel body on whole staging memrefs, the inputs' at contents `x0`, `x1` and the output's at anything, runs to
    the continuation holding the inputs' as they were and the output's at `out0_2 x0 x1`. -/
theorem sound_kernel (c : Dev nD) (E : Set ℕ) (i : grid0.Coords)
    (arg1 : Memref sig .tc .vmem S256x512 .bf16) (harg1 : arg1.IsWhole)
    (arg2 : Memref sig .tc .vmem S8192x512 .bf16) (harg2 : arg2.IsWhole)
    (arg3 : Memref sig .tc .vmem S256x1 .f32) (harg3 : arg3.IsWhole)
    (x0 : Vec F S256x512 .bf16) (x1 : Vec F S8192x512 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__entropy_kernel i arg1 harg1 arg2 harg2 arg3 harg3) K := by
  simp only [cc0__entropy_kernel_eq_skeleton]; unfold cc0__entropy_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the one pipeline on core `c`: the arrays as the region finds them; after the body at point `t`
    each input's buffer at its block and the output's at `out0_2` of the two input blocks; the invariant the scoped
    rest and the generator register, untouched; nothing owed; the two input windows hold the left and the right half
    of their common array's share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so `sound_kernel` applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Frame

end
-- ==== Proof.KernelIdeal.Launch.lean ====
/-
  The launch of the entropy kernel's one pipeline, whose two input windows stage the SAME array, and the frame of @main.

  The pipeline's windows sit on two distinct buffers: the normalized matrix (windows 0 and 1, both inputs) and the
  vector of row entropies (window 2, the output). At the region's entry the matrix's full share is dealt to the two
  input windows as its left and right halves, and the output window takes the vector whole. An input is never written
  back, so at the region's exit the two halves still hold the matrix as the region found it and join to the full share
  again, and the vector holds what the write-backs of all the grid's points left. The contents at the exit are thus
  the entry contents everywhere but at the vector. The host lines after the region run from there; they write neither
  the argument array nor any array of the pipeline.
-/
import proofs.«125946_j49383533969545_2_alg».proof.Proof.KernelIdeal.Body
import proofs.«125946_j49383533969545_2_alg».proof.Proof.LibSharedFrame

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at the region's exit -/

/-- Core `c`'s buffer contents when the region is left: the vector of row entropies at what the write-backs of every
    point of the grid left in it, every other buffer at what the region found. -/
def W (c : Dev nD) : Valuation τ sig (Elt F) :=
  Function.update (V0 m c) (Proc.devRef .tc main_v9) ((dats m 0 c).arrAt 2 cfg0.N)

/-- At the vector of row entropies they are the output array's final contents. -/
theorem W_main_v9 (c : Dev nD) : W m c (Proc.devRef .tc main_v9) = (dats m 0 c).arrAt 2 cfg0.N :=
  Function.update_self _ _ _

/-- At any other buffer they are the entry contents. -/
theorem W_of_ne (c : Dev nD) (b : Ref sig .tc) (h : b ≠ main_v9) : W m c (Proc.devRef .tc b) = V m c b :=
  Function.update_of_ne (StableHlo.devRef_ne_of_ne h) _ _

/-! ## The buffers behind the arrays, and the arrays window by window -/

/-- The distinct buffers behind the three windows' arrays are two: the normalized matrix and the vector of row
    entropies. -/
theorem arrBufs_eq (c : Dev nD) (G : (b : Ref sig .tc) → Buf (Elt F) ((c.tc : Thread nD τ).loc b)) :
    (Pipeline.arrBufs spec0 c G : sProp 𝕄)
      = iprop((((c.tc : Thread nD τ).loc main_v8) ↦{fullShare} G main_v8) ∗ (((c.tc : Thread nD τ).loc main_v9) ↦{fullShare} G main_v9)) := by
  unfold Pipeline.arrBufs
  exact bigSep_eq_bigSepL_of_eq [main_v8, main_v9] (by decide) (by decide) _

/-- The proof data's arrays, window by window: the matrix at the left half of its share for window 0 and at the right
    half for window 1, the vector at the full share for window 2, each array a whole buffer. -/
theorem arrays_eq (c : Dev nD) (G : (w : Fin cfg0.W) → Buf (Elt F) ((cfg0.win w).arr.view.loc (c.tc : Thread nD τ))) :
    (dats m 0 c).arrays G
      = iprop((((c.tc : Thread nD τ).loc main_v8) ↦{fullShare.left} G 0) ∗ (((c.tc : Thread nD τ).loc main_v8) ↦{fullShare.right} G 1)
          ∗ (((c.tc : Thread nD τ).loc main_v9) ↦{fullShare} G 2)) := by
  unfold Dat.arrays
  -- windows 0 and 1 are on one array, so their element sets are one set: every index of it, the array being whole
  rw [bigSep_W0, (arr_whole0 0).set_eq_univ, (arr_whole0 2).set_eq_univ]
  rfl

/-- An input window's array is never written back: it holds the matrix as the region found it at every point. -/
theorem arrAt0 (c : Dev nD) (n : ℕ) : (dats m 0 c).arrAt 0 n = V m c main_v8 :=
  (Pipeline.Dat.arrAt_in (dats m 0 c) 0 rfl n).trans (A_eq m c 0)
theorem arrAt1 (c : Dev nD) (n : ℕ) : (dats m 0 c).arrAt 1 n = V m c main_v8 :=
  (Pipeline.Dat.arrAt_in (dats m 0 c) 1 rfl n).trans (A_eq m c 1)
/-- The output window's array is the vector as the region found it before any write-back. -/
theorem arrAt2_zero (c : Dev nD) : (dats m 0 c).arrAt 2 0 = V m c main_v9 := A_eq m c 2

/-! ## Dealing the shares at entry, joining them at exit -/

/-- At the region's entry the two buffers, whole at the entry contents, make the proof data's arrays: the matrix's full
    share splits into the halves the two input windows hold. -/
theorem hsplit (c : Dev nD) :
    (Pipeline.arrBufs spec0 c (V m c) : sProp 𝕄) ⊢ (dats m 0 c).arrays ((dats m 0 c).arrAt · 0) := by
  rw [arrBufs_eq, arrays_eq, arrAt0, arrAt1, arrAt2_zero]
  iintro ⟨H8, H9⟩
  ihave H := (pointsTo_share (PosShare.mem_left_op_right fullShare)).1 $$ H8
  icases H with ⟨Hl, Hr⟩
  isplitl [Hl]; · iexact Hl
  isplitl [Hr]; · iexact Hr
  iexact H9

/-- At the region's exit the proof data's arrays are the two buffers whole at the exit contents, and conversely: the
    halves of the matrix's share, both still at the entry contents, join. -/
theorem hjoin (c : Dev nD) :
    (dats m 0 c).arrays ((dats m 0 c).arrAt · cfg0.N) ⊣⊢ (Pipeline.arrBufs spec0 c (fun b => W m c (Proc.devRef .tc b)) : sProp 𝕄) := by
  rw [arrBufs_eq, arrays_eq, arrAt0, arrAt1, W_main_v9, W_of_ne m c main_v8 (by decide)]
  constructor
  · iintro ⟨Hl, Hr, H9⟩
    isplitr [H9]
    · iapply (pointsTo_share (PosShare.mem_left_op_right fullShare)).2
      isplitl [Hl] <;> iassumption
    · iexact H9
  · iintro ⟨H8, H9⟩
    ihave H := (pointsTo_share (PosShare.mem_left_op_right fullShare)).1 $$ H8
    icases H with ⟨Hl, Hr⟩
    isplitl [Hl]; · iexact Hl
    isplitl [Hr]; · iexact Hr
    iexact H9

/-! ## The run and the frame -/

/-- At the compiled mesh, for any values, from any memory with zero counters: every weakly fair execution of @main on the
    TensorCores terminates, and every final state has every array of the pipeline at what the library computes from the
    proof data and every other unscoped buffer as the lines after the region leave it from the exit contents. -/
theorem run_main : θ_run defs (onTc (τ := τ) (main (F := F))) (s₀ m ρ)
    (Pipeline.FramePost cfgs (dats m) 0 (fun c b => StableHlo.after (List.flatten [hostOps1]) (W m c) (Proc.devRef .tc b))) :=
  Cert.SharedFrame.θ_run_frame_around_shared cfgs (dats m) (0 : Fin 1) cellOf_inj winFacts₀0 block_pos0 arr_whole0 stage_whole0
    defs₀ Variants.none m ρ main
    (hbody := fun c => (body_obligation m c).loose) (howed := fun _ _ => rfl)
    (V₀ := V0 m) (opss := [hostOps1]) (hsub := sfx_sub) (hfresh := sfx_fresh) (hkeep := sfx_keeps)
    (hmain := hmain m Variants.none) (hsplit := hsplit m) (W := W m) (hjoin := hjoin m)
    (hWrest := fun c b hb => W_of_ne m c b fun e => hb 2 e.symm) (hΦ := fun _ _ => rfl)

/-- The lines after the region are one stretch. -/
theorem flatten_sfx : List.flatten [(hostOps1 : List (HloOp τ sig (Elt F)))] = hostOps1 := by
  simp only [List.flatten_cons, List.flatten_nil, List.append_nil]

/-- No host operation after the region writes the argument array, and the region leaves it as it found it: it ends as
    launched. -/
theorem after_main_arg0 (c : Dev nD) :
    StableHlo.after (List.flatten [hostOps1]) (W m c) (Proc.devRef .tc main_arg0) = m ((c : Thread nD τ).loc main_arg0) := by
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    W_of_ne m c main_arg0 (by decide)]
  exact V_main_arg0 m c

/-- THE FRAME at any float instance: every weakly fair execution of @main terminates and leaves the argument array as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c =>
    ((h c).2 main_arg0 (Pipeline.mem_restRefs_of main_arg0 (by decide) (by decide))).trans (after_main_arg0 m c)) (run_main m ρ)

/-- The same run read at the result buffer too: it ends at what the lines after the region compute from the exit
    contents. -/
theorem result : θ_run defs (onTc (τ := τ) (main (F := F))) ⟨m, fun _ => 0, ρ⟩ (fun r => ∀ c : Dev nD,
      r.2.mem ((c.tc : Thread nD τ).loc main_v30) = StableHlo.after hostOps1 (W m c) (Proc.devRef .tc main_v30)
      ∧ r.2.mem ((c.tc : Thread nD τ).loc main_arg0) = m ((c.tc : Thread nD τ).loc main_arg0)) :=
  (θ_run defs _ _).mono (fun _ h c =>
    ⟨((h c).2 main_v30 (Pipeline.mem_restRefs_of main_v30 (by decide) (by decide))).trans
        (congrArg (fun l => StableHlo.after l (W m c) (Proc.devRef .tc main_v30)) flatten_sfx),
      ((h c).2 main_arg0 (Pipeline.mem_restRefs_of main_arg0 (by decide) (by decide))).trans (after_main_arg0 m c)⟩) (run_main m ρ)

end Cert.KernelIdeal.Frame

end
-- ==== Proof.LibEntropy.lean ====
/- Real and extended-real lemmas about the entropy of a softmax, sums of products and a normalisation,
   stated on Mathlib's extended reals with the exact operations of the ideal float instance. -/
import Idealize.ShloMosaic.PureOps.Ideal
import Mathlib.Analysis.SpecialFunctions.Log.Basic

noncomputable section

namespace Cert.Entropy

open Idealize.ShloMosaic
open scoped BigOperators

variable {ι κ ε : Type} [Fintype ι] [Fintype κ] [Fintype ε]

/-! ### (E0) the coercion of a finite sum -/

/-- The coercion of the reals into the extended reals commutes with a finite sum. -/
theorem coe_sum (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of the reals into the extended reals commutes with a sum over a finite type. -/
theorem coe_sum_univ (f : ι → ℝ) : ((∑ i, f i : ℝ) : EReal) = ∑ i, (f i : EReal) :=
  coe_sum Finset.univ f

/-! ### (E2) the entropy of a softmax in two forms -/

/-- The inputs shifted by a constant: s_i = g_i - mx. -/
def shift (g : ι → EReal) (mx : EReal) : ι → EReal := fun i => g i - mx

/-- The partition sum Z = Σ_i exp(s_i). -/
def Z (g : ι → EReal) (mx : EReal) : EReal := ∑ i, Ideal.exp (shift g mx i)

/-- The entropy in the form log Z - (Σ_i exp(s_i) · s_i) / Z. -/
def entK (g : ι → EReal) (mx : EReal) : EReal :=
  Ideal.log (Z g mx) - Ideal.div (∑ i, Ideal.exp (shift g mx i) * shift g mx i) (Z g mx)

/-- The entropy in the form - Σ_i exp(lp_i) · lp_i with lp_i = s_i - log Z the log-softmax. -/
def entR (g : ι → EReal) (mx : EReal) : EReal :=
  - ∑ i, Ideal.exp (shift g mx i - Ideal.log (Z g mx)) * (shift g mx i - Ideal.log (Z g mx))

/-- A shifted real input is the real g_i - mx. -/
theorem shift_coe (g : ι → ℝ) (mx : ℝ) (i : ι) :
    shift (fun i => (g i : EReal)) (mx : EReal) i = ((g i - mx : ℝ) : EReal) := by
  simp only [shift, EReal.coe_sub]

/-- On real inputs the partition sum is the real Σ_i exp(g_i - mx). -/
theorem Z_coe (g : ι → ℝ) (mx : ℝ) :
    Z (fun i => (g i : EReal)) (mx : EReal) = ((∑ i, Real.exp (g i - mx) : ℝ) : EReal) := by
  simp only [Z, shift_coe, Ideal.exp_coe, coe_sum_univ]

/-- A sum of exponentials over a nonempty finite type is positive. -/
theorem Zr_pos [Nonempty ι] (s : ι → ℝ) : 0 < ∑ i, Real.exp (s i) :=
  Finset.sum_pos (fun i _ => Real.exp_pos _) Finset.univ_nonempty

/-- The real identity: with Z = Σ exp(s_i) > 0 and L = log Z,
    L - (Σ exp(s_i) s_i)/Z = - Σ exp(s_i - L) (s_i - L), because exp(s_i - L) = exp(s_i)/Z. -/
theorem real_identity (s : ι → ℝ) (hZ : 0 < ∑ i, Real.exp (s i)) :
    Real.log (∑ i, Real.exp (s i)) - (∑ i, Real.exp (s i) * s i) / (∑ i, Real.exp (s i))
      = - ∑ i, Real.exp (s i - Real.log (∑ i, Real.exp (s i))) * (s i - Real.log (∑ i, Real.exp (s i))) := by
  have hne : (∑ i, Real.exp (s i)) ≠ 0 := hZ.ne'
  have h1 : ∀ i, Real.exp (s i - Real.log (∑ i, Real.exp (s i))) * (s i - Real.log (∑ i, Real.exp (s i)))
      = (Real.exp (s i) * s i) / (∑ i, Real.exp (s i))
        - Real.log (∑ i, Real.exp (s i)) * (Real.exp (s i) / (∑ i, Real.exp (s i))) := by
    intro i
    rw [Real.exp_sub, Real.exp_log hZ]
    field_simp
  simp only [h1]
  rw [Finset.sum_sub_distrib, ← Finset.sum_div, ← Finset.mul_sum, ← Finset.sum_div, div_self hne]
  ring

/-- On real inputs the first form is the real log Z - W / Z. -/
theorem entK_coe [Nonempty ι] (g : ι → ℝ) (mx : ℝ) :
    entK (fun i => (g i : EReal)) (mx : EReal)
      = ((Real.log (∑ i, Real.exp (g i - mx))
            - (∑ i, Real.exp (g i - mx) * (g i - mx)) / (∑ i, Real.exp (g i - mx)) : ℝ) : EReal) := by
  have hZ : 0 < ∑ i, Real.exp (g i - mx) := Zr_pos _
  unfold entK
  rw [Z_coe]
  simp only [shift_coe, Ideal.exp_coe, ← EReal.coe_mul, ← coe_sum_univ]
  rw [Ideal.log_coe, if_neg (not_le.2 hZ), Ideal.div_coe hZ.ne', ← EReal.coe_mul, ← EReal.coe_sub,
    ← div_eq_mul_one_div]

/-- On real inputs the second form is the real - Σ exp(s_i - log Z) (s_i - log Z). -/
theorem entR_coe [Nonempty ι] (g : ι → ℝ) (mx : ℝ) :
    entR (fun i => (g i : EReal)) (mx : EReal)
      = ((- ∑ i, Real.exp (g i - mx - Real.log (∑ i, Real.exp (g i - mx)))
              * (g i - mx - Real.log (∑ i, Real.exp (g i - mx))) : ℝ) : EReal) := by
  have hZ : 0 < ∑ i, Real.exp (g i - mx) := Zr_pos _
  unfold entR
  rw [Z_coe, Ideal.log_coe, if_neg (not_le.2 hZ)]
  simp only [shift_coe, ← EReal.coe_sub, Ideal.exp_coe, ← EReal.coe_mul, ← coe_sum_univ, ← EReal.coe_neg]

/-- On real inputs the two forms of the entropy agree. -/
theorem entK_eq_entR [Nonempty ι] (g : ι → ℝ) (mx : ℝ) :
    entK (fun i => (g i : EReal)) mx = entR (fun i => (g i : EReal)) mx := by
  rw [entK_coe, entR_coe, real_identity (fun i => g i - mx) (Zr_pos _)]

/-- On real inputs the entropy is a real. -/
theorem entK_real [Nonempty ι] (g : ι → ℝ) (mx : ℝ) :
    ∃ h : ℝ, entK (fun i => (g i : EReal)) mx = (h : EReal) :=
  ⟨_, entK_coe g mx⟩

/-! ### (E3) a sum over columns of a column total times an entry -/

/-- Σ_e (Σ_c p_{c,e}) · p_{d,e} = Σ_c Σ_e p_{c,e} · p_{d,e}: distribute the product over the inner sum and
    exchange the two finite sums. -/
theorem colsum (p : κ → ε → ℝ) (d : κ) :
    ∑ e, ((0 : EReal) + ∑ c, (p c e : EReal)) * (p d e : EReal)
      = (0 : EReal) + ∑ c, ∑ e, (p c e : EReal) * (p d e : EReal) := by
  simp only [zero_add, ← EReal.coe_mul, ← coe_sum_univ]
  rw [Finset.sum_comm]
  simp only [Finset.sum_mul]

/-! ### (E4) a normalisation by the larger of a Euclidean norm and a positive floor -/

/-- For real x and a positive real floor, x_j divided by max (√(Σ_e x_e²)) eps is the real quotient: the sum of
    squares is a nonnegative real, so its square root is real, and the divisor is at least eps > 0. -/
theorem normalize_real (x : ε → ℝ) (eps : ℝ) (heps : 0 < eps) (j : ε) :
    Ideal.div (x j : EReal)
        (max (Ideal.sqrt ((0 : EReal) + ∑ e, (x e : EReal) * (x e : EReal))) (eps : EReal))
      = ((x j / max (Real.sqrt (∑ e, x e * x e)) eps : ℝ) : EReal) := by
  have hnn : ¬ (∑ e, x e * x e) < 0 := not_lt.2 (Finset.sum_nonneg (fun e _ => mul_self_nonneg _))
  have hpos : 0 < max (Real.sqrt (∑ e, x e * x e)) eps := lt_of_lt_of_le heps (le_max_right _ _)
  simp only [zero_add, ← EReal.coe_mul, ← coe_sum_univ]
  rw [Ideal.sqrt_coe, if_neg hnn, ← EReal.coe_strictMono.monotone.map_max, Ideal.div_coe hpos.ne',
    ← EReal.coe_mul, ← div_eq_mul_one_div]

/-! ### (E1) the maximum of finitely many reals folded from -∞ -/

/-- The maximum of finitely many reals (at least one), folded from -∞, is a real: it lies between one of the
    reals and the largest of them. -/
theorem fold_max_coe [Nonempty ι] (f : ι → ℝ) :
    ∃ r : ℝ, (Finset.univ : Finset ι).fold max (⊥ : EReal) (fun i => (f i : EReal)) = (r : EReal) := by
  obtain ⟨i0⟩ := ‹Nonempty ι›
  have hlo : ((f i0 : ℝ) : EReal) ≤ (Finset.univ : Finset ι).fold max (⊥ : EReal) (fun i => (f i : EReal)) :=
    (Finset.le_fold_max _).2 (Or.inr ⟨i0, Finset.mem_univ _, le_rfl⟩)
  have hhi : (Finset.univ : Finset ι).fold max (⊥ : EReal) (fun i => (f i : EReal))
      ≤ ((Finset.univ.sup' ⟨i0, Finset.mem_univ _⟩ f : ℝ) : EReal) :=
    (Finset.fold_max_le _).2 ⟨bot_le, fun i hi => EReal.coe_le_coe_iff.2 (Finset.le_sup' f hi)⟩
  have hbot : (Finset.univ : Finset ι).fold max (⊥ : EReal) (fun i => (f i : EReal)) ≠ ⊥ :=
    fun h => EReal.coe_ne_bot _ (le_bot_iff.1 (h ▸ hlo))
  have htop : (Finset.univ : Finset ι).fold max (⊥ : EReal) (fun i => (f i : EReal)) ≠ ⊤ :=
    fun h => EReal.coe_ne_top _ (top_le_iff.1 (h ▸ hhi))
  exact ⟨_, (EReal.coe_toReal htop hbot).symm⟩

/-! ### (E5) two single-precision words as reals -/

/-- The single-precision word 0x46000000 (sign 0, exponent field 140, fraction 0) denotes 2^13 = 8192. -/
theorem c8192_real : Ideal.ofBits .f32 0x46000000#32 = ((8192 : ℝ) : EReal) := by
  simp [Ideal.ofBits, Ideal.ieee, -EReal.coe_mul]; norm_num

/-- The single-precision word 0x2B8CBCCC (sign 0, exponent field 87, fraction 834764), the nearest
    single-precision number to 10^-12, denotes the positive real (2^23 + 834764) · 2^(87 - 127 - 23). -/
theorem eps_real : ∃ r : ℝ, 0 < r ∧ Ideal.ofBits .f32 0x2B8CBCCC#32 = (r : EReal) := by
  refine ⟨((2 ^ 23 + 834764 : ℕ) : ℝ) * (2 : ℝ) ^ ((87 : ℤ) - 127 - 23), by positivity, ?_⟩
  simp [Ideal.ofBits, Ideal.ieee, -EReal.coe_mul]

end Cert.Entropy

end
-- ==== Proof.KernelIdeal.PayValue.lean ====
/-
  One entry of what the entropy kernel's body stores, at the ideal instance.

  The body's two loads are a 256×512 block X (the query rows) and the whole 8192×512 matrix Y. Its store is the
  256×1 column whose entry at row r is the entropy of the softmax of row r of the product X·Yᵀ, computed as
  log Z − W / Z over the row shifted by its maximum: with g d = ∑ k, X r k · Y d k and mx = max over d of g d,
  Z = ∑ d, exp (g d − mx) and W = ∑ d, exp (g d − mx) · (g d − mx). That is `Cert.Entropy.entK g mx`.
-/
import proofs.«125946_j49383533969545_2_alg».proof.Proof.Gen.KernelIdeal.Skeleton
import proofs.«125946_j49383533969545_2_alg».proof.Proof.LibEntropy
import Idealize.ShloMosaic.Lib.ValueIdx
import Idealize.ShloMosaic.Lib.Pipeline.Value
import Idealize.ShloMosaic.PureOps.Ideal.Laws

noncomputable section

namespace Cert.KernelIdeal.PayValue

open Cert.KernelIdeal Cert.KernelIdeal.Gen Idealize.ShloMosaic Idealize.ShloMosaic.ValueIdx

/-! ## The matrix product at an entry -/

theorem lhs_0 (i : S256x8192.Idx) (q : dot_S256x512_S8192x512_S256x8192_1_1_0_0_n_n.contr.Idx) :
    (dot_S256x512_S8192x512_S256x8192_1_1_0_0_n_n.lhsIdx i q 0).val = (i 0).val := by
  unfold DotDims.lhsIdx
  rw [dif_neg (show ¬(0 : Fin S256x512.rank) ∈ dot_S256x512_S8192x512_S256x8192_1_1_0_0_n_n.lhsBatch by decide), dif_pos (show (0 : Fin S256x512.rank) ∈ dot_S256x512_S8192x512_S256x8192_1_1_0_0_n_n.lhsNonContracting by decide)]
  rfl
theorem lhs_1 (i : S256x8192.Idx) (q : dot_S256x512_S8192x512_S256x8192_1_1_0_0_n_n.contr.Idx) :
    (dot_S256x512_S8192x512_S256x8192_1_1_0_0_n_n.lhsIdx i q 1).val = (q ⟨0, by decide⟩).val :=
  dot_S256x512_S8192x512_S256x8192_1_1_0_0_n_n.lhsIdx_val_of_single rfl i q
theorem rhs_0 (i : S256x8192.Idx) (q : dot_S256x512_S8192x512_S256x8192_1_1_0_0_n_n.contr.Idx) :
    (dot_S256x512_S8192x512_S256x8192_1_1_0_0_n_n.rhsIdx i q 0).val = (i 1).val := by
  unfold DotDims.rhsIdx
  rw [dif_neg (show ¬(0 : Fin S8192x512.rank) ∈ dot_S256x512_S8192x512_S256x8192_1_1_0_0_n_n.rhsBatch by decide), dif_pos (show (0 : Fin S8192x512.rank) ∈ dot_S256x512_S8192x512_S256x8192_1_1_0_0_n_n.rhsNonContracting by decide)]
  rfl
theorem rhs_1 (i : S256x8192.Idx) (q : dot_S256x512_S8192x512_S256x8192_1_1_0_0_n_n.contr.Idx) :
    (dot_S256x512_S8192x512_S256x8192_1_1_0_0_n_n.rhsIdx i q 1).val = (q ⟨0, by decide⟩).val :=
  dot_S256x512_S8192x512_S256x8192_1_1_0_0_n_n.rhsIdx_val_of_single rfl i q

/-- The matrix product into the zero accumulator, contracting the second axis of both operands, at entry (r, d):
    the sum over k of X r k · Y d k. -/
theorem matmul_entry (X : FVec Ideal S256x512 .bf16) (Y : FVec Ideal S8192x512 .bf16) (r : Fin 256) (d : Fin 8192) :
    FloatOps.matmul dot_S256x512_S8192x512_S256x8192_1_1_0_0_n_n none X Y (constant (F := Ideal) S256x8192 .f32 0x00000000#32) (ix2 r d)
      = ∑ k : Fin 512, X (ix2 r k) * Y (ix2 d k) := by
  rw [Ideal.matmul_constant_zero_apply, ← Equiv.sum_comp (contrEquiv1 dot_S256x512_S8192x512_S256x8192_1_1_0_0_n_n 512 rfl rfl).symm]
  refine Finset.sum_congr rfl fun k _ => ?_
  have hk := contrEquiv1_symm_val dot_S256x512_S8192x512_S256x8192_1_1_0_0_n_n 512 rfl rfl k
  have el : dot_S256x512_S8192x512_S256x8192_1_1_0_0_n_n.lhsIdx (ix2 r d) ((contrEquiv1 dot_S256x512_S8192x512_S256x8192_1_1_0_0_n_n 512 rfl rfl).symm k) = ix2 r k := funext fun a => Fin.ext (by
    match a with
    | ⟨0, _⟩ => exact lhs_0 _ _
    | ⟨1, _⟩ => exact (lhs_1 _ _).trans hk)
  have er : dot_S256x512_S8192x512_S256x8192_1_1_0_0_n_n.rhsIdx (ix2 r d) ((contrEquiv1 dot_S256x512_S8192x512_S256x8192_1_1_0_0_n_n 512 rfl rfl).symm k) = ix2 d k := funext fun a => Fin.ext (by
    match a with
    | ⟨0, _⟩ => exact rhs_0 _ _
    | ⟨1, _⟩ => exact (rhs_1 _ _).trans hk)
  rw [el, er]

/-! ## Row reductions and the column forms -/

/-- The lane sum of a 256×8192 array at row r: the sum over the row. -/
theorem row_sum (src : FVec Ideal S256x8192 .f32) (hφ : FKind.Formats .f32) (hacc : (0x00000000#32 : BitVec 32) = 0x00000000#32) (r : Fin 256) :
    multiReduction .add [1] S256 src 0x00000000#32 reduces_S256x8192_S256 hφ hacc (ix1 r) = ∑ d : Fin 8192, src (ix2 r d) := by
  refine (Ideal.multiReduction_add_single src 0x00000000#32 reduces_S256x8192_S256 hφ hacc (ix1 r)).trans ?_
  refine Finset.sum_congr rfl fun d _ => congrArg src (funext fun a => Fin.ext ?_)
  match a with
  | ⟨0, _⟩ => rfl
  | ⟨1, _⟩ => rfl

/-- The word of −∞ denotes the bottom of the extended reals. -/
theorem ofBits_neg_inf : Ideal.ofBits .f32 0xFF800000#32 = (⊥ : EReal) := by
  simp [Ideal.ofBits, Ideal.ieee]

/-- The lane maximum of a 256×8192 array at row r: the maximum over the row, folded from −∞. -/
theorem row_max (src : FVec Ideal S256x8192 .f32) (hφ : FKind.Formats .f32) (hacc : (0xFF800000#32 : BitVec 32) = 0xFF800000#32) (r : Fin 256) :
    multiReduction .maximumf [1] S256 src 0xFF800000#32 reduces_S256x8192_S256 hφ hacc (ix1 r)
      = (Finset.univ : Finset (Fin 8192)).fold max (⊥ : EReal) (fun d => src (ix2 r d)) := by
  refine (Ideal.multiReduction_maximumf_single src 0xFF800000#32 reduces_S256x8192_S256 hφ hacc (ix1 r)).trans ?_
  rw [Ideal.ofBits_def, ofBits_neg_inf]
  refine congrArg (Finset.fold max (⊥ : EReal) · Finset.univ) (funext fun d => congrArg src (funext fun a => Fin.ext ?_))
  match a with
  | ⟨0, _⟩ => rfl
  | ⟨1, _⟩ => rfl

/-- A vector of 256 entries cast to a 256×1 column reads, at (r, 0), its entry r. -/
theorem col_cast (v : FVec Ideal S256 .f32) (r : Fin 256) :
    shapeCast S256x1 v shapeCasts_S256_S256x1 (ix2 r (0 : Fin 1)) = v (ix1 r) :=
  shapeCast_apply v shapeCasts_S256_S256x1 _ _ (by
    rw [Shape.rowMajor_val_two, Shape.rowMajor_val_one]
    show r.val = r.val * 1 + 0
    omega)

/-- A 256×1 column broadcast along the rows reads, at (r, d), the column's entry r. -/
theorem col_bcast (v : FVec Ideal S256x1 .f32) (r : Fin 256) (d : Fin 8192) :
    broadcastTo S256x8192 v broadcasts_S256x1_S256x8192 (ix2 r d) = v (ix2 r (0 : Fin 1)) := by
  refine broadcastTo_apply v broadcasts_S256x1_S256x8192 (ix2 r d) (ix2 r (0 : Fin 1)) fun ax => ?_
  match ax with
  | ⟨0, _⟩ => rfl
  | ⟨1, _⟩ => rfl

/-! ## The payload at an entry -/

/-- Row r of the product X·Yᵀ. -/
def gramRow (X : FVec Ideal S256x512 .bf16) (Y : FVec Ideal S8192x512 .bf16) (r : Fin 256) : Fin 8192 → EReal :=
  fun d => ∑ k : Fin 512, X (ix2 r k) * Y (ix2 d k)

/-- The maximum of that row, folded from −∞. -/
def gramMax (X : FVec Ideal S256x512 .bf16) (Y : FVec Ideal S8192x512 .bf16) (r : Fin 256) : EReal :=
  (Finset.univ : Finset (Fin 8192)).fold max (⊥ : EReal) (gramRow X Y r)

/-- What the body stores at row r is the entropy, in the form log Z − W / Z, of row r of X·Yᵀ shifted by its maximum. -/
theorem pay_apply (X : Vec Ideal S256x512 .bf16) (Y : Vec Ideal S8192x512 .bf16) (r : Fin 256) :
    k0_pay1 X Y (ix2 r (0 : Fin 1)) = Cert.Entropy.entK (gramRow X Y r) (gramMax X Y r) := by
  unfold k0_pay1
  simp only [shapeCast_self]
  -- the product and its row maximum, named
  generalize hG : matmul dot_S256x512_S8192x512_S256x8192_1_1_0_0_n_n none X Y (constant (F := Ideal) S256x8192 .f32 0x00000000#32) = G
  have hGe : ∀ d : Fin 8192, G (ix2 r d) = gramRow X Y r d := fun d => by rw [← hG]; exact matmul_entry X Y r d
  have hmx : ∀ d : Fin 8192, broadcastTo S256x8192 (shapeCast S256x1 (multiReduction .maximumf [1] S256 G 0xFF800000#32 reduces_S256x8192_S256 (.inl rfl) rfl) shapeCasts_S256_S256x1) broadcasts_S256x1_S256x8192 (ix2 r d) = gramMax X Y r := fun d => by
    rw [col_bcast, col_cast, row_max]
    exact congrArg (Finset.fold max (⊥ : EReal) · Finset.univ) (funext hGe)
  have hsh : ∀ d : Fin 8192, subf G (broadcastTo S256x8192 (shapeCast S256x1 (multiReduction .maximumf [1] S256 G 0xFF800000#32 reduces_S256x8192_S256 (.inl rfl) rfl) shapeCasts_S256_S256x1) broadcasts_S256x1_S256x8192) (ix2 r d)
      = Cert.Entropy.shift (gramRow X Y r) (gramMax X Y r) d := fun d => by
    rw [subf_apply, hGe, hmx]; rfl
  generalize subf G (broadcastTo S256x8192 (shapeCast S256x1 (multiReduction .maximumf [1] S256 G 0xFF800000#32 reduces_S256x8192_S256 (.inl rfl) rfl) shapeCasts_S256_S256x1) broadcasts_S256x1_S256x8192) = S at hsh ⊢
  rw [subf_apply, divf_apply]
  show Ideal.log (shapeCast S256x1 (multiReduction .add [1] S256 (exp S) 0x00000000#32 reduces_S256x8192_S256 (.inl rfl) rfl) shapeCasts_S256_S256x1 (ix2 r (0 : Fin 1)))
      - Ideal.div (shapeCast S256x1 (multiReduction .add [1] S256 (mulf (exp S) S) 0x00000000#32 reduces_S256x8192_S256 (.inl rfl) rfl) shapeCasts_S256_S256x1 (ix2 r (0 : Fin 1)))
          (shapeCast S256x1 (multiReduction .add [1] S256 (exp S) 0x00000000#32 reduces_S256x8192_S256 (.inl rfl) rfl) shapeCasts_S256_S256x1 (ix2 r (0 : Fin 1))) = _
  rw [col_cast, col_cast, row_sum, row_sum]
  unfold Cert.Entropy.entK Cert.Entropy.Z
  have e1 : ∀ d : Fin 8192, exp S (ix2 r d) = Ideal.exp (Cert.Entropy.shift (gramRow X Y r) (gramMax X Y r) d) := fun d => by
    rw [← hsh d]; rfl
  have e2 : ∀ d : Fin 8192, mulf (exp S) S (ix2 r d) = Ideal.exp (Cert.Entropy.shift (gramRow X Y r) (gramMax X Y r) d) * Cert.Entropy.shift (gramRow X Y r) (gramMax X Y r) d := fun d => by
    rw [mulf_apply, e1, hsh]
  rw [Finset.sum_congr rfl fun d _ => e1 d, Finset.sum_congr rfl fun d _ => e2 d]

end Cert.KernelIdeal.PayValue

end
-- ==== Proof.KernelIdeal.BlockValue.lean ====
/-
  The vector of row entropies after the region, at the ideal instance, as one function of the normalized matrix.

  Grid point t stores, at row r of its 256×1 output block, the entropy of row r of (query block t)·(whole matrix)ᵀ.
  The query block t is rows 256 t … 256 t + 255 of the normalized matrix P, and the other operand is P itself, so
  that entry is the entropy of row 256 t + r of the Gram matrix P·Pᵀ: the block written back at point t is block t of
  the one function `Hrow P`. The 32 blocks tile the 8192×1 output, so after the region the output array is `Hrow P`.
-/
import proofs.«125946_j49383533969545_2_alg».proof.Proof.KernelIdeal.Body
import proofs.«125946_j49383533969545_2_alg».proof.Proof.KernelIdeal.PayValue
import Idealize.ShloMosaic.Lib.Pipeline.Value

set_option maxRecDepth 16384

noncomputable section

namespace Cert.KernelIdeal.BlockValue

open Cert.KernelIdeal Cert.KernelIdeal.Gen Cert.KernelIdeal.Frame Cert.KernelIdeal.PayValue
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

theorem hz : (![0, 0] : Fin 2 → Nat) = fun _ => 0 := funext fun a => by fin_cases a <;> rfl

/-- The printed index maps over the grid: at point t the query block and the output block are block t along the rows,
    and the whole-matrix window is always block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The normalized matrix as the region finds it (the array both input windows stage), as extended reals. -/
def Pnorm (c : Dev nD) : S8192x512.Idx → EReal := V m c main_v8

theorem t_lt (t : Fin cfg0.N) : t.val < 32 := by
  have h := t.isLt
  have hN : cfg0.N = 32 := N_0
  omega

/-- The query block at point t is rows 256 t … 256 t + 255 of the normalized matrix. -/
theorem iblk0_apply (c : Dev nD) (t : Fin cfg0.N) (x : S256x512.Idx) (k : S8192x512.Idx)
    (hk0 : (k 0).val = 256 * t.val + (x 0).val) (hk1 : (k 1).val = (x 1).val) :
    (iblk m c 0 t : Vec Ideal S256x512 .bf16) x = Pnorm m c k := by
  obtain ⟨e0, e1, -⟩ := idx_facts t
  unfold iblk Pnorm
  rw [View.read_apply]
  show V m c main_v8 _ = V m c main_v8 _
  refine congrArg (V m c main_v8) (funext fun a => Fin.ext ?_)
  match a with
  | ⟨0, _⟩ => show win0_0.index t 0 * 256 + 1 * (x 0).val = (k 0).val; rw [e0, hk0]; omega
  | ⟨1, _⟩ => show win0_0.index t 1 * 512 + 1 * (x 1).val = (k 1).val; rw [e1, hk1]; omega

/-- The whole-matrix block at any point is the normalized matrix. -/
theorem iblk1_apply (c : Dev nD) (t : Fin cfg0.N) (x : S8192x512.Idx) :
    (iblk m c 1 t : Vec Ideal S8192x512 .bf16) x = Pnorm m c x := by
  obtain ⟨-, -, e2, e3, -⟩ := idx_facts t
  unfold iblk Pnorm
  rw [View.read_apply]
  show V m c main_v8 _ = V m c main_v8 _
  refine congrArg (V m c main_v8) (funext fun a => Fin.ext ?_)
  match a with
  | ⟨0, _⟩ => show win0_1.index t 0 * 8192 + 1 * (x 0).val = (x 0).val; rw [e2]; omega
  | ⟨1, _⟩ => show win0_1.index t 1 * 512 + 1 * (x 1).val = (x 1).val; rw [e3]; omega

/-- The row entropies as one function of the normalized matrix P: at row n, the entropy (in the form log Z − W / Z, the
    row shifted by its maximum) of row n of the Gram matrix P·Pᵀ. -/
def Hrow (Pm : S8192x512.Idx → EReal) : S8192x1.Idx → EReal := fun i =>
  Cert.Entropy.entK (fun d : Fin 8192 => ∑ k : Fin 512, Pm (ix2 (⟨(i 0).val, (i 0).isLt⟩ : Fin 8192) k) * Pm (ix2 d k))
    ((Finset.univ : Finset (Fin 8192)).fold max (⊥ : EReal)
      (fun d : Fin 8192 => ∑ k : Fin 512, Pm (ix2 (⟨(i 0).val, (i 0).isLt⟩ : Fin 8192) k) * Pm (ix2 d k)))

theorem Hrow_apply (Pm : S8192x512.Idx → EReal) (i : S8192x1.Idx) (n : Fin 8192) (h : (i 0).val = n.val) :
    Hrow Pm i = Cert.Entropy.entK (fun d : Fin 8192 => ∑ k : Fin 512, Pm (ix2 n k) * Pm (ix2 d k))
      ((Finset.univ : Finset (Fin 8192)).fold max (⊥ : EReal) (fun d : Fin 8192 => ∑ k : Fin 512, Pm (ix2 n k) * Pm (ix2 d k))) := by
  have e : (⟨(i 0).val, (i 0).isLt⟩ : Fin 8192) = n := Fin.ext h
  unfold Hrow
  rw [e]

/-- What point t writes back is block t of `Hrow` of the normalized matrix as the region finds it. -/
theorem flushed_eq (c : Dev nD) (t : Fin cfg0.N) :
    (dats m 0 c).flushed 2 t = ((cfg0.win 2).blk t).view.read (Elt Ideal) (Hrow (Pnorm m c)) := by
  show (cfg0.win 2).cut (grid0.coords t) ((dats m 0 c).after 2 t) = _
  rw [after0_2]
  unfold out0_2
  rw [View.canon_unit_zero hz]
  simp only [View.ld_unit_zero (S := S256x512) hz, View.ld_unit_zero (S := S8192x512) hz]
  have ht := t_lt t
  obtain ⟨-, -, -, -, e4, e5⟩ := idx_facts t
  funext j
  obtain ⟨r, u, rfl⟩ : ∃ (r : Fin 256) (u : Fin 1), j = ix2 r u := ⟨j 0, j 1, eq_ix2 j⟩
  obtain rfl : u = 0 := Subsingleton.elim _ _
  refine (pay_apply (iblk m c 0 t) (iblk m c 1 t) r).trans ?_
  rw [View.read_apply]
  show Cert.Entropy.entK _ _ = Hrow (Pnorm m c) (((cfg0.win 2).blk t).view.emb (ix2 r (0 : Fin 1)))
  have hi : ((((cfg0.win 2).blk t).view.emb (ix2 r (0 : Fin 1))) 0).val = (⟨256 * t.val + r.val, by have := r.isLt; omega⟩ : Fin 8192).val := by
    show win0_2.index t 0 * 256 + 1 * r.val = 256 * t.val + r.val
    rw [e4]; omega
  rw [Hrow_apply _ _ _ hi]
  have hg : gramRow (iblk m c 0 t) (iblk m c 1 t) r = fun d : Fin 8192 => ∑ k : Fin 512,
      Pnorm m c (ix2 (⟨256 * t.val + r.val, by have := r.isLt; omega⟩ : Fin 8192) k) * Pnorm m c (ix2 d k) :=
    funext fun d => Finset.sum_congr rfl fun k _ => by
      rw [iblk0_apply m c t (ix2 r k) (ix2 (⟨256 * t.val + r.val, by have := r.isLt; omega⟩ : Fin 8192) k) rfl rfl, iblk1_apply m c t (ix2 d k)]
  unfold gramMax
  rw [hg]

/-- An index of the output array is in point t's block iff its row is among the block's 256 rows. -/
theorem mem_blk (t : Fin cfg0.N) (i : S8192x1.Idx) :
    i ∈ ((cfg0.win 2).blk t).view.set ↔ ∀ a : Fin 2, win0_2.index t a * S256x1.size a ≤ (i a).val ∧ (i a).val < win0_2.index t a * S256x1.size a + S256x1.size a := by
  show i ∈ ((View.whole main_v9).slice (win0_2.rect t)).set ↔ _
  rw [View.set_slice_whole, Rect.mem_set_unit]
  exact Iff.rfl

/-- The output array after the region: the 32 blocks cover it, so it is `Hrow` of the normalized matrix. -/
theorem final (c : Dev nD) : (dats m 0 c).arrAt 2 cfg0.N = Hrow (Pnorm m c) :=
  (dats m 0 c).arrAt_eq_of_cover 2 (Hrow (Pnorm m c)) (fun t _ => flushed_eq m c t) fun i => by
    have hi0 : (i 0).val < 8192 := (i 0).isLt
    have hi1 : (i 1).val < 1 := (i 1).isLt
    have hN : cfg0.N = 32 := N_0
    refine ⟨⟨(i 0).val / 256, by omega⟩, flush0_2 _, ?_⟩
    rw [mem_blk]
    obtain ⟨-, -, -, -, e4, e5⟩ := idx_facts ⟨(i 0).val / 256, by omega⟩
    intro a
    match a with
    | ⟨0, _⟩ =>
      show win0_2.index _ 0 * 256 ≤ (i 0).val ∧ (i 0).val < win0_2.index _ 0 * 256 + 256
      rw [e4]; show (i 0).val / 256 * 256 ≤ (i 0).val ∧ (i 0).val < (i 0).val / 256 * 256 + 256; omega
    | ⟨1, _⟩ =>
      show win0_2.index _ 1 * 1 ≤ (i 1).val ∧ (i 1).val < win0_2.index _ 1 * 1 + 1
      rw [e5]; omega

end Cert.KernelIdeal.BlockValue

end
-- ==== Proof.KernelIdeal.PreValue.lean ====
/-
  The matrix the kernel's region works on. Before the region the kernel program runs the same ten host operations as the
  reference (square, row sum, square root, clamp by the word of 1e-12, divide), then a change of float format, which at the
  ideal instance is the identity: the array both input windows stage, and the f32 array the lines after the region read,
  are the reference's normalized matrix of the argument.
-/
import proofs.«125946_j49383533969545_2_alg».proof.Proof.KernelIdeal.BlockValue
import proofs.«125946_j49383533969545_2_alg».proof.Proof.RefRead
import Idealize.ShloMosaic.Lib.StableHlo.Run

set_option maxRecDepth 16384

noncomputable section

namespace Cert.KernelIdeal.PreValue

open Cert.KernelIdeal Cert.KernelIdeal.Gen Cert.KernelIdeal.Frame Cert.KernelIdeal.BlockValue
open Idealize.ShloMosaic Idealize.ShloMosaic.TcCoe Idealize.ShloMosaic.StableHlo Idealize.SL.Sem

variable (m : (ℓ : Loc nD τ sig) → Buf (Elt Ideal) ℓ)

/-- The f32 normalized matrix the region is entered with is the reference's normalized matrix of the argument. -/
theorem V_main_v7 (c : Dev nD) :
    V m c main_v7 = Cert.ReferenceIdeal.ReadP.val_main_v7 (F := Ideal) (m ((c : Thread nD τ).loc main_arg0)) := by
  show StableHlo.after (hostOps0 (F := Ideal)) (fun b => m (c, b)) (Proc.devRef .tc main_v7) = _
  after_results
  rfl

/-- So is the array the two input windows stage: the change of format is the identity on extended reals. -/
theorem Pnorm_eq (c : Dev nD) :
    Pnorm m c = Cert.ReferenceIdeal.ReadP.val_main_v7 (F := Ideal) (m ((c : Thread nD τ).loc main_arg0)) := by
  unfold Pnorm
  show StableHlo.after (hostOps0 (F := Ideal)) (fun b => m (c, b)) (Proc.devRef .tc main_v8) = _
  after_results
  rfl

end Cert.KernelIdeal.PreValue

end
-- ==== Proof.Spec.lean ====
/-
  The loss as two formulas of the normalized prototype matrix P (8192 rows of 512 entries, extended reals), and the
  law that joins them.

  Write G c d = ∑ k, P c k · P d k for the Gram matrix. Both programs compute
      (∑ c, H (G c)) / 8192 + H q ,
  the mean entropy of the softmax of the Gram matrix's rows plus the entropy of the softmax of its column sums q.
  One program takes the entropy of a row g shifted by its maximum as  log Z − W / Z  (Z = ∑ exp, W = ∑ exp · shifted)
  and the column sums as  q d = ∑ e, (∑ c, P c e) · P d e ; the other takes the entropy as  −∑ exp(lp) · lp  with lp the
  log-softmax, and  q d = ∑ c, G c d . On real entries the two entropies agree (exp (s − log Z) = exp s / Z) and the two
  column sums agree (a finite sum distributes over a real factor).
-/
import proofs.«125946_j49383533969545_2_alg».proof.Proof.LibEntropy
import Idealize.ShloMosaic.Lib.ValueIdx

noncomputable section

namespace Cert.Spec

open Idealize.ShloMosaic Idealize.ShloMosaic.ValueIdx Cert.Entropy

/-- A matrix of 8192 rows and 512 columns of extended reals. -/
abbrev Mat : Type := (⟨2, ![8192, 512]⟩ : Shape).Idx → EReal

/-- The Gram matrix P·Pᵀ at (c, d). -/
def gram (Pm : Mat) (c d : Fin 8192) : EReal := ∑ k : Fin 512, Pm (ix2 c k) * Pm (ix2 d k)

/-- The maximum of a vector of 8192 entries, folded from −∞. -/
def fmax (g : Fin 8192 → EReal) : EReal := (Finset.univ : Finset (Fin 8192)).fold max (⊥ : EReal) g

/-- The column sums of the Gram matrix as (sum of the rows of P) · Pᵀ. -/
def colK (Pm : Mat) (d : Fin 8192) : EReal := ∑ e : Fin 512, (∑ c : Fin 8192, Pm (ix2 c e)) * Pm (ix2 d e)

/-- The column sums of the Gram matrix, summed directly. -/
def colR (Pm : Mat) (d : Fin 8192) : EReal := ∑ c : Fin 8192, gram Pm c d

/-- The loss with each entropy in the form log Z − W / Z and the column sums as a row-sum product. -/
def lossK (Pm : Mat) : EReal :=
  Ideal.div (∑ c : Fin 8192, entK (gram Pm c) (fmax (gram Pm c))) (Ideal.ofBits .f32 0x46000000#32)
    + entK (colK Pm) (fmax (colK Pm))

/-- The loss with each entropy in the form −∑ exp(lp) · lp and the column sums taken directly. -/
def lossR (Pm : Mat) : EReal :=
  Ideal.div (∑ c : Fin 8192, entR (gram Pm c) (fmax (gram Pm c))) (Ideal.ofBits .f32 0x46000000#32)
    + entR (colR Pm) (fmax (colR Pm))

/-- On a matrix of reals the two formulas of the loss agree: row by row the two forms of the entropy agree, the two
    forms of the column sums agree, and so do the entropies of the column sums. -/
theorem lossK_eq_lossR (Pm : Mat) (hreal : ∀ i, ∃ r : ℝ, Pm i = (r : EReal)) : lossK Pm = lossR Pm := by
  haveI : Nonempty (Fin 8192) := ⟨0⟩
  choose p hp using hreal
  have hgram : ∀ c, gram Pm c = fun d => ((∑ k : Fin 512, p (ix2 c k) * p (ix2 d k) : ℝ) : EReal) := fun c => funext fun d => by
    unfold gram
    simp only [hp, ← EReal.coe_mul, ← coe_sum_univ]
  have hrow : ∀ c, entK (gram Pm c) (fmax (gram Pm c)) = entR (gram Pm c) (fmax (gram Pm c)) := fun c => by
    rw [hgram c]
    obtain ⟨mx, hmx⟩ := fold_max_coe (fun d : Fin 8192 => ∑ k : Fin 512, p (ix2 c k) * p (ix2 d k))
    unfold fmax
    rw [hmx]
    exact entK_eq_entR _ mx
  have hcol : colK Pm = colR Pm := funext fun d => by
    unfold colK colR gram
    have h := colsum (fun (c : Fin 8192) (e : Fin 512) => p (ix2 c e)) d
    simp only [zero_add] at h
    simp only [hp]
    exact h
  have hcolr : colR Pm = fun d => ((∑ c : Fin 8192, ∑ k : Fin 512, p (ix2 c k) * p (ix2 d k) : ℝ) : EReal) := funext fun d => by
    unfold colR
    simp only [hgram, ← coe_sum_univ]
  have hq : entK (colK Pm) (fmax (colK Pm)) = entR (colR Pm) (fmax (colR Pm)) := by
    rw [hcol, hcolr]
    obtain ⟨mx, hmx⟩ := fold_max_coe (fun d : Fin 8192 => ∑ c : Fin 8192, ∑ k : Fin 512, p (ix2 c k) * p (ix2 d k))
    unfold fmax
    rw [hmx]
    exact entK_eq_entR _ mx
  unfold lossK lossR
  rw [hq, Finset.sum_congr rfl fun c _ => hrow c]

end Cert.Spec

end
-- ==== Proof.KernelIdeal.TailValue.lean ====
/-
  The host lines that follow the region, read at the one index of their rank-0 result, at the ideal float instance.

  The twenty-seven lines read two buffers written before them: the column H of 8192 row entropies and the normalized
  8192×512 matrix P. They compute  (∑ c, H c) / 8192  and, from P alone, the entropy of the softmax of the vector
      q d = ∑ e, (∑ c, P c e) · P d e
  in the form  log Z − W / Z  with the entries shifted by their maximum (Z = ∑ exp, W = ∑ exp · shifted), and add the two.
  Each line is read at an index from its operands at indices: a pointwise line by definition, a sum along an axis as the
  sum over that axis's coordinates, a maximum along an axis as the fold of max from −∞, a broadcast, a transpose and a
  change of shape as their operand at the matching index, a product of matrices as the sum over the contracted axis.
-/
import proofs.«125946_j49383533969545_2_alg».proof.Proof.Gen.KernelIdeal.Launch
import proofs.«125946_j49383533969545_2_alg».proof.Proof.Spec
import proofs.«125946_j49383533969545_2_alg».proof.Proof.LibEntropy
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.TailValue

open Cert.KernelIdeal Cert.KernelIdeal.Gen Idealize.ShloMosaic Idealize.ShloMosaic.TcCoe Idealize.SL.Sem Idealize.ShloMosaic.StableHlo
open Idealize.ShloMosaic.ValueIdx

/-- A column of 8192 entries, and a matrix of 8192 rows of 512 entries, at the ideal instance. -/
abbrev Col : Type := FVec Ideal S8192x1 .f32
abbrev Mtx : Type := FVec Ideal S8192x512 .f32

/-! ## The lines, one by one, as functions of the column and the matrix -/

/-- The sum of every entry of the column. -/
def t10 (Hv : Col) : FVec Ideal S_ .f32 :=
  Host.reduceAdd Hv (constant (F := Ideal) S_ .f32 0x00000000#32) reducesTo_S8192x1_S_d0_1 h_S_
/-- The column sums of the matrix, -/
def t11 (Pm : Mtx) : FVec Ideal S512 .f32 :=
  Host.reduceAdd Pm (constant (F := Ideal) S_ .f32 0x00000000#32) reducesTo_S8192x512_S512_d0 h_S_
/-- as one row; -/
def t12 (Pm : Mtx) : FVec Ideal S1x512 .f32 := broadcastInDim S1x512 ![1] bcast_S512_S1x512_1 (t11 Pm)
/-- the matrix transposed; -/
def t13 (Pm : Mtx) : FVec Ideal S512x8192 .f32 := transpose S512x8192 [1, 0] Pm transposes_S8192x512_S512x8192_1_0
/-- their product: one row of 8192 entries. -/
def t14 (Pm : Mtx) : FVec Ideal S1x8192 .f32 :=
  Host.dotGeneral dot_S1x512_S512x8192_S1x8192_1_0_0_1_n_n none (t12 Pm) (t13 Pm)
/-- The row's maximum, -/
def t15 (Pm : Mtx) : FVec Ideal S1 .f32 :=
  Host.reduce FloatOps.maximumf (t14 Pm) (constant (F := Ideal) S_ .f32 0xFF800000#32) reducesTo_S1x8192_S1_d1 h_S_
def t16 (Pm : Mtx) : FVec Ideal S1x1 .f32 := broadcastInDim S1x1 ![0] bcast_S1_S1x1_0 (t15 Pm)
/-- along the row; -/
def t17 (Pm : Mtx) : FVec Ideal S1x8192 .f32 := broadcastInDim S1x8192 ![0, 1] bcast_S1x1_S1x8192_0_1 (t16 Pm)
/-- the row shifted by it, -/
def t18 (Pm : Mtx) : FVec Ideal S1x8192 .f32 := subf (t14 Pm) (t17 Pm)
/-- its exponentials, -/
def t19 (Pm : Mtx) : FVec Ideal S1x8192 .f32 := Host.exp (t18 Pm)
/-- their sum, -/
def t20 (Pm : Mtx) : FVec Ideal S1 .f32 :=
  Host.reduceAdd (t19 Pm) (constant (F := Ideal) S_ .f32 0x00000000#32) reducesTo_S1x8192_S1_d1 h_S_
def t21 (Pm : Mtx) : FVec Ideal S1x1 .f32 := broadcastInDim S1x1 ![0] bcast_S1_S1x1_0 (t20 Pm)
/-- its logarithm; -/
def t22 (Pm : Mtx) : FVec Ideal S1x1 .f32 := Host.log (t21 Pm)
/-- the exponentials times the shifted entries, -/
def t23 (Pm : Mtx) : FVec Ideal S1x8192 .f32 := mulf (t19 Pm) (t18 Pm)
/-- their sum, -/
def t24 (Pm : Mtx) : FVec Ideal S1 .f32 :=
  Host.reduceAdd (t23 Pm) (constant (F := Ideal) S_ .f32 0x00000000#32) reducesTo_S1x8192_S1_d1 h_S_
def t25 (Pm : Mtx) : FVec Ideal S1x1 .f32 := broadcastInDim S1x1 ![0] bcast_S1_S1x1_0 (t24 Pm)
/-- over the sum of the exponentials; -/
def t26 (Pm : Mtx) : FVec Ideal S1x1 .f32 := Host.divf (t25 Pm) (t21 Pm)
/-- the entropy, -/
def t27 (Pm : Mtx) : FVec Ideal S1x1 .f32 := subf (t22 Pm) (t26 Pm)
/-- the column's sum over 8192, -/
def t28 (Hv : Col) : FVec Ideal S_ .f32 := Host.divf (t10 Hv) (constant (F := Ideal) S_ .f32 0x46000000#32)
/-- the entropy at rank 0, -/
def t29 (Pm : Mtx) : FVec Ideal S_ .f32 := shapeCast S_ (t27 Pm) shapeCasts_S1x1_S_
/-- and their sum: the result. -/
def t30 (Hv : Col) (Pm : Mtx) : FVec Ideal S_ .f32 := addf (t28 Hv) (t29 Pm)

set_option maxHeartbeats 1000000 in
/-- The result buffer after the lines, from any contents, is the lines' composed function of the column of row entropies
    and the normalized matrix as those contents have them. -/
theorem after_term (Wv : Valuation τ sig (Elt Ideal)) :
    StableHlo.after (hostOps1 (F := Ideal)) Wv (Proc.devRef .tc main_v30)
      = t30 (Wv (Proc.devRef .tc main_v9)) (Wv (Proc.devRef .tc main_v7)) := by
  after_results_simp
  rfl

/-! ## Each line read at an index -/

/-- The word of the row maximum's initial value is −∞. -/
theorem ofBits_neg_inf : Ideal.ofBits .f32 0xFF800000#32 = (⊥ : EReal) := by simp [Ideal.ofBits, Ideal.ieee]

/-- The column's total: the sum over both axes, the second of one coordinate. -/
theorem t10_apply (Hv : Col) : t10 Hv ix0 = ∑ c : Fin 8192, Hv (ix2 c (0 : Fin 1)) := by
  unfold t10
  simp only [Host.reduceAdd, Ideal.hostReduceAdd_def]
  rw [Ideal.hostReduceAdd_total reducesTo_S8192x1_S_d0_1 (fun b => b.elim0), constant_apply, Ideal.ofBits_zero_f32, zero_add,
    sum_idx2]
  exact Finset.sum_congr rfl fun c _ => Fin.sum_univ_one _

/-- A column sum of the matrix. -/
theorem t11_apply (Pm : Mtx) (e : Fin 512) : t11 Pm (ix1 e) = ∑ c : Fin 8192, Pm (ix2 c e) := by
  unfold t11
  simp only [Host.reduceAdd, Ideal.hostReduceAdd_def]
  rw [Ideal.hostReduceAdd_single reducesTo_S8192x512_S512_d0 (by decide), constant_apply, Ideal.ofBits_zero_f32, zero_add]
  refine Finset.sum_congr rfl fun k _ => ?_
  exact congrArg Pm (funext fun a => Fin.ext (by match a with | ⟨0, _⟩ => rfl | ⟨1, _⟩ => rfl))

theorem t12_apply (Pm : Mtx) (e : Fin 512) : t12 Pm (ix2 (0 : Fin 1) e) = t11 Pm (ix1 e) := by
  unfold t12
  exact broadcastInDim_apply _ bcast_S512_S1x512_1 (t11 Pm) _ (ix1 e) (fun a => match a with
    | ⟨0, _⟩ => by show e.val = if (512 : Nat) = 1 then 0 else e.val; rw [if_neg (by decide)])

theorem t13_apply (Pm : Mtx) (e : Fin 512) (d : Fin 8192) : t13 Pm (ix2 e d) = Pm (ix2 d e) := by
  unfold t13
  exact transpose_ix2_apply Pm _ e d

local notation "𝔇" => dot_S1x512_S512x8192_S1x8192_1_0_0_1_n_n

theorem lhs_0 (i : S1x8192.Idx) (q : (𝔇).contr.Idx) : ((𝔇).lhsIdx i q 0).val = (i 0).val := by
  unfold DotDims.lhsIdx
  rw [dif_neg (show ¬(0 : Fin S1x512.rank) ∈ (𝔇).lhsBatch by decide), dif_pos (show (0 : Fin S1x512.rank) ∈ (𝔇).lhsNonContracting by decide)]
  rfl
theorem lhs_1 (i : S1x8192.Idx) (q : (𝔇).contr.Idx) : ((𝔇).lhsIdx i q 1).val = (q ⟨0, by decide⟩).val :=
  (𝔇).lhsIdx_val_of_single rfl i q
theorem rhs_0 (i : S1x8192.Idx) (q : (𝔇).contr.Idx) : ((𝔇).rhsIdx i q 0).val = (q ⟨0, by decide⟩).val :=
  (𝔇).rhsIdx_val_of_single rfl i q
theorem rhs_1 (i : S1x8192.Idx) (q : (𝔇).contr.Idx) : ((𝔇).rhsIdx i q 1).val = (i 1).val := by
  unfold DotDims.rhsIdx
  rw [dif_neg (show ¬(1 : Fin S512x8192.rank) ∈ (𝔇).rhsBatch by decide), dif_pos (show (1 : Fin S512x8192.rank) ∈ (𝔇).rhsNonContracting by decide)]
  rfl

/-- An entry of the product: the sum over the contracted axis. -/
theorem t14_apply (Pm : Mtx) (d : Fin 8192) :
    t14 Pm (ix2 (0 : Fin 1) d) = ∑ e : Fin 512, t12 Pm (ix2 (0 : Fin 1) e) * t13 Pm (ix2 e d) := by
  unfold t14
  generalize t12 Pm = L
  generalize t13 Pm = R
  simp only [Host.dotGeneral]
  rw [Ideal.dotGeneral_apply, ← Equiv.sum_comp (ValueIdx.contrEquiv1 (𝔇) 512 rfl rfl).symm]
  refine Finset.sum_congr rfl fun k _ => ?_
  have hk := ValueIdx.contrEquiv1_symm_val (𝔇) 512 rfl rfl k
  have el : (𝔇).lhsIdx (ix2 (0 : Fin 1) d) ((ValueIdx.contrEquiv1 (𝔇) 512 rfl rfl).symm k) = ix2 (0 : Fin 1) k := funext fun a => Fin.ext (by
    match a with
    | ⟨0, _⟩ => exact lhs_0 _ _
    | ⟨1, _⟩ => exact (lhs_1 _ _).trans hk)
  have er : (𝔇).rhsIdx (ix2 (0 : Fin 1) d) ((ValueIdx.contrEquiv1 (𝔇) 512 rfl rfl).symm k) = ix2 k d := funext fun a => Fin.ext (by
    match a with
    | ⟨0, _⟩ => exact (rhs_0 _ _).trans hk
    | ⟨1, _⟩ => exact rhs_1 _ _)
  rw [el, er]

/-- The row's maximum: the fold of max over its 8192 entries from −∞. -/
theorem t15_apply (Pm : Mtx) : t15 Pm (ix1 (0 : Fin 1)) = Cert.Spec.fmax fun d => t14 Pm (ix2 (0 : Fin 1) d) := by
  unfold t15 Cert.Spec.fmax
  generalize t14 Pm = x
  have h : S1x8192.Reduces [1] S1 := by decide
  rw [Host.reduce_eq_fold_single FloatOps.maximumf x _ reducesTo_S1x8192_S1_d1 h h_S_, constant_apply, ofBits_neg_inf]
  have hf : (x ∘ h.lift (ix1 (0 : Fin 1))) = fun d : Fin 8192 => x (ix2 (0 : Fin 1) d) :=
    funext fun k => congrArg x (funext fun a => Fin.ext (by match a with | ⟨0, _⟩ => rfl | ⟨1, _⟩ => rfl))
  exact congrArg (fun f => Finset.fold max (⊥ : EReal) f (Finset.univ : Finset (Fin 8192))) hf

theorem t16_apply (Pm : Mtx) : t16 Pm (ix2 (0 : Fin 1) (0 : Fin 1)) = t15 Pm (ix1 (0 : Fin 1)) := by
  unfold t16
  exact broadcastInDim_apply _ bcast_S1_S1x1_0 (t15 Pm) _ (ix1 (0 : Fin 1)) (fun a => match a with
    | ⟨0, _⟩ => by show 0 = if (1 : Nat) = 1 then 0 else _; rw [if_pos rfl])

theorem t17_apply (Pm : Mtx) (d : Fin 8192) : t17 Pm (ix2 (0 : Fin 1) d) = t16 Pm (ix2 (0 : Fin 1) (0 : Fin 1)) := by
  unfold t17
  exact broadcastInDim_apply _ bcast_S1x1_S1x8192_0_1 (t16 Pm) _ (ix2 (0 : Fin 1) (0 : Fin 1)) (fun a => match a with
    | ⟨0, _⟩ => by show 0 = if (1 : Nat) = 1 then 0 else _; rw [if_pos rfl]
    | ⟨1, _⟩ => by show 0 = if (1 : Nat) = 1 then 0 else _; rw [if_pos rfl])

theorem t18_apply (Pm : Mtx) (i : S1x8192.Idx) : t18 Pm i = t14 Pm i - t17 Pm i := rfl
theorem t19_apply (Pm : Mtx) (i : S1x8192.Idx) : t19 Pm i = Ideal.exp (t18 Pm i) := rfl

/-- A sum along the row. -/
theorem rowSum_apply (x : FVec Ideal S1x8192 .f32) :
    Host.reduceAdd x (constant (F := Ideal) S_ .f32 0x00000000#32) reducesTo_S1x8192_S1_d1 h_S_ (ix1 (0 : Fin 1))
      = ∑ d : Fin 8192, x (ix2 (0 : Fin 1) d) := by
  simp only [Host.reduceAdd, Ideal.hostReduceAdd_def]
  rw [Ideal.hostReduceAdd_single reducesTo_S1x8192_S1_d1 (by decide), constant_apply, Ideal.ofBits_zero_f32, zero_add]
  refine Finset.sum_congr rfl fun k _ => ?_
  exact congrArg x (funext fun a => Fin.ext (by match a with | ⟨0, _⟩ => rfl | ⟨1, _⟩ => rfl))

theorem t20_apply (Pm : Mtx) : t20 Pm (ix1 (0 : Fin 1)) = ∑ d : Fin 8192, t19 Pm (ix2 (0 : Fin 1) d) := rowSum_apply _
theorem t21_apply (Pm : Mtx) : t21 Pm (ix2 (0 : Fin 1) (0 : Fin 1)) = t20 Pm (ix1 (0 : Fin 1)) := by
  unfold t21
  exact broadcastInDim_apply _ bcast_S1_S1x1_0 (t20 Pm) _ (ix1 (0 : Fin 1)) (fun a => match a with
    | ⟨0, _⟩ => by show 0 = if (1 : Nat) = 1 then 0 else _; rw [if_pos rfl])
theorem t22_apply (Pm : Mtx) (i : S1x1.Idx) : t22 Pm i = Ideal.log (t21 Pm i) := rfl
theorem t23_apply (Pm : Mtx) (i : S1x8192.Idx) : t23 Pm i = t19 Pm i * t18 Pm i := rfl
theorem t24_apply (Pm : Mtx) : t24 Pm (ix1 (0 : Fin 1)) = ∑ d : Fin 8192, t23 Pm (ix2 (0 : Fin 1) d) := rowSum_apply _
theorem t25_apply (Pm : Mtx) : t25 Pm (ix2 (0 : Fin 1) (0 : Fin 1)) = t24 Pm (ix1 (0 : Fin 1)) := by
  unfold t25
  exact broadcastInDim_apply _ bcast_S1_S1x1_0 (t24 Pm) _ (ix1 (0 : Fin 1)) (fun a => match a with
    | ⟨0, _⟩ => by show 0 = if (1 : Nat) = 1 then 0 else _; rw [if_pos rfl])
theorem t26_apply (Pm : Mtx) (i : S1x1.Idx) : t26 Pm i = Ideal.div (t25 Pm i) (t21 Pm i) := rfl
theorem t27_apply (Pm : Mtx) (i : S1x1.Idx) : t27 Pm i = t22 Pm i - t26 Pm i := rfl
theorem t28_apply (Hv : Col) : t28 Hv ix0 = Ideal.div (t10 Hv ix0) (Ideal.ofBits .f32 0x46000000#32) := rfl

/-- The change of shape from one row of one entry to rank 0 keeps the entry. -/
theorem t29_apply (Pm : Mtx) : t29 Pm ix0 = t27 Pm (ix2 (0 : Fin 1) (0 : Fin 1)) := by
  unfold t29
  refine shapeCast_apply (t27 Pm) shapeCasts_S1x1_S_ ix0 (ix2 (0 : Fin 1) (0 : Fin 1)) ?_
  have e1 : S1x1.numel = 1 := by decide
  have e0 : S_.numel = 1 := by decide
  have h1 := (S1x1.rowMajor (ix2 (0 : Fin 1) (0 : Fin 1))).isLt
  have h0 := (S_.rowMajor ix0).isLt
  omega

theorem t30_apply (Hv : Col) (Pm : Mtx) : t30 Hv Pm ix0 = t28 Hv ix0 + t29 Pm ix0 := rfl

/-! ## The entropy of the softmax of the column sums -/

open Cert.Spec Cert.Entropy

/-- The product row is the vector q: entry d is ∑ e, (∑ c, P c e) · P d e. -/
theorem t14_eq (Pm : Mtx) (d : Fin 8192) : t14 Pm (ix2 (0 : Fin 1) d) = colK Pm d := by
  rw [t14_apply]
  unfold colK
  exact Finset.sum_congr rfl fun e _ => by rw [t12_apply, t11_apply, t13_apply]

/-- The row's maximum is q's. -/
theorem t15_eq (Pm : Mtx) : t15 Pm (ix1 (0 : Fin 1)) = fmax (colK Pm) := by
  rw [t15_apply]
  exact congrArg fmax (funext fun d => t14_eq Pm d)

/-- The shifted row is q shifted by its maximum. -/
theorem t18_eq (Pm : Mtx) (d : Fin 8192) : t18 Pm (ix2 (0 : Fin 1) d) = shift (colK Pm) (fmax (colK Pm)) d := by
  rw [t18_apply, t14_eq, t17_apply, t16_apply, t15_eq]
  rfl

/-- The sum of the exponentials is the partition sum. -/
theorem t20_eq (Pm : Mtx) : t20 Pm (ix1 (0 : Fin 1)) = Z (colK Pm) (fmax (colK Pm)) := by
  rw [t20_apply]
  unfold Z
  exact Finset.sum_congr rfl fun d _ => by rw [t19_apply, t18_eq]

/-- The sum of the exponentials times the shifted entries. -/
theorem t24_eq (Pm : Mtx) : t24 Pm (ix1 (0 : Fin 1))
    = ∑ d : Fin 8192, Ideal.exp (shift (colK Pm) (fmax (colK Pm)) d) * shift (colK Pm) (fmax (colK Pm)) d := by
  rw [t24_apply]
  exact Finset.sum_congr rfl fun d _ => by rw [t23_apply, t19_apply, t18_eq]

/-- The lines' entropy is the entropy of the softmax of q in the form log Z − W / Z. -/
theorem t27_eq (Pm : Mtx) : t27 Pm (ix2 (0 : Fin 1) (0 : Fin 1)) = entK (colK Pm) (fmax (colK Pm)) := by
  rw [t27_apply, t22_apply, t26_apply, t21_apply, t25_apply, t20_eq, t24_eq]
  rfl

/-! ## The result -/

/-- THE HOST TAIL AT ITS ONE INDEX. From any contents, the result buffer after the lines that follow the region holds
    the sum of the column of row entropies over the word 8192.0, plus the entropy of the softmax of the column sums of
    the Gram matrix of the normalized matrix — both read off those contents. -/
theorem after_tail (Wv : Valuation τ sig (Elt Ideal)) :
    StableHlo.after (hostOps1 (F := Ideal)) Wv (Proc.devRef .tc main_v30) ValueIdx.ix0
      = Ideal.div (∑ c : Fin 8192, (Wv (Proc.devRef .tc main_v9) : S8192x1.Idx → EReal) (ValueIdx.ix2 c (0 : Fin 1))) (Ideal.ofBits .f32 0x46000000#32)
          + Cert.Entropy.entK (Cert.Spec.colK (Wv (Proc.devRef .tc main_v7))) (Cert.Spec.fmax (Cert.Spec.colK (Wv (Proc.devRef .tc main_v7)))) := by
  rw [after_term, t30_apply, t28_apply, t10_apply, t29_apply, t27_eq]

end Cert.KernelIdeal.TailValue

end
-- ==== Proof.RefRun.lean ====
/- The reference program's run, read back as its last stage function.

   The program's @main is 62 host operations (module RefRunOps: the list `ValueP.ops`, and `ValueP.run_after`: every
   weakly fair execution ends with each buffer at `StableHlo.after ops` of the launch contents). Module RefRead names what
   each operation computes as a function of the argument, one stage per operation (`ReadP.val_<buffer>`). This module
   proves that the fold of the 62 operations leaves, in the result buffer `main_v25`, the last stage `val_main_v25` of
   the argument's contents, and leaves the argument as it was.

   The fold is never composed into one term. The list is cut into six consecutive pieces (`ops_split`,
   `StableHlo.after_append`), and each piece is read from an ARBITRARY valuation `W`: the one or two buffers later pieces
   read hold their stage function of `x0` as soon as the buffers the piece reads hold theirs, and a buffer the piece does
   not write keeps its contents. The operations of the two called functions (the two log-softmaxes) are stated over
   typed references, each function transported along the buffer's type equation; at a literal reference that equation
   is reflexive, so each such operation is first identified with the untyped one (`opsC_eq`, `opsE_eq`), one operation
   at a time, through a lemma in which the function is a variable. Chaining the six pieces gives `after_ops`; `run` is
   `ValueP.run_after` weakened to the two buffers a value proof reads. -/
import proofs.«125946_j49383533969545_2_alg».proof.Proof.RefRunOps
import proofs.«125946_j49383533969545_2_alg».proof.Proof.RefRead
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

/-! ## The operations, cut into six consecutive pieces -/

/-- Operations 0–9: the rows of the argument divided by their norms (`main_v7`). -/
abbrev opsA : List (HloOp τ sig (Elt F)) :=
  [ binary main_arg0 main_arg0 main_v0 (mulf : (⟨S8192x512, .f32⟩ : BufTy).Contents (Elt F) → (⟨S8192x512, .f32⟩ : BufTy).Contents (Elt F) → (⟨S8192x512, .f32⟩ : BufTy).Contents (Elt F)),
    nullary main_cst (constant S_ .f32 0x00000000#32),
    binary main_v0 main_cst main_v1 ((fun x v => Host.reduceAdd x v reducesTo_S8192x512_S8192_d1 h_S_) : (⟨S8192x512, .f32⟩ : BufTy).Contents (Elt F) → (⟨S_, .f32⟩ : BufTy).Contents (Elt F) → (⟨S8192, .f32⟩ : BufTy).Contents (Elt F)),
    unary main_v1 main_v2 (broadcastInDim S8192x1 ![0] bcast_S8192_S8192x1_0 : (⟨S8192, .f32⟩ : BufTy).Contents (Elt F) → (⟨S8192x1, .f32⟩ : BufTy).Contents (Elt F)),
    unary main_v2 main_v3 (Host.sqrt : (⟨S8192x1, .f32⟩ : BufTy).Contents (Elt F) → (⟨S8192x1, .f32⟩ : BufTy).Contents (Elt F)),
    nullary main_cst_0 (constant S_ .f32 0x2B8CBCCC#32),
    unary main_cst_0 main_v4 (broadcastInDim S8192x1 ![] bcast_S_S8192x1 : (⟨S_, .f32⟩ : BufTy).Contents (Elt F) → (⟨S8192x1, .f32⟩ : BufTy).Contents (Elt F)),
    binary main_v3 main_v4 main_v5 (maximumf : (⟨S8192x1, .f32⟩ : BufTy).Contents (Elt F) → (⟨S8192x1, .f32⟩ : BufTy).Contents (Elt F) → (⟨S8192x1, .f32⟩ : BufTy).Contents (Elt F)),
    unary main_v5 main_v6 (broadcastInDim S8192x512 ![0, 1] bcast_S8192x1_S8192x512_0_1 : (⟨S8192x1, .f32⟩ : BufTy).Contents (Elt F) → (⟨S8192x512, .f32⟩ : BufTy).Contents (Elt F)),
    binary main_arg0 main_v6 main_v7 (Host.divf : (⟨S8192x512, .f32⟩ : BufTy).Contents (Elt F) → (⟨S8192x512, .f32⟩ : BufTy).Contents (Elt F) → (⟨S8192x512, .f32⟩ : BufTy).Contents (Elt F)) ]

/-- Operations 10–13: the Gram matrix of the normalised rows (`main_v8`) and its column sums as a row (`main_v10`). -/
abbrev opsB : List (HloOp τ sig (Elt F)) :=
  [ binary main_v7 main_v7 main_v8 ((fun l r => Host.dotGeneral dot_S8192x512_S8192x512_S8192x8192_1_1_0_0_n_n none l r) : (⟨S8192x512, .f32⟩ : BufTy).Contents (Elt F) → (⟨S8192x512, .f32⟩ : BufTy).Contents (Elt F) → (⟨S8192x8192, .f32⟩ : BufTy).Contents (Elt F)),
    nullary main_cst_1 (constant S_ .f32 0x00000000#32),
    binary main_v8 main_cst_1 main_v9 ((fun x v => Host.reduceAdd x v reducesTo_S8192x8192_S8192_d0 h_S_) : (⟨S8192x8192, .f32⟩ : BufTy).Contents (Elt F) → (⟨S_, .f32⟩ : BufTy).Contents (Elt F) → (⟨S8192, .f32⟩ : BufTy).Contents (Elt F)),
    unary main_v9 main_v10 (broadcastInDim S1x8192 ![1] bcast_S8192_S1x8192_1 : (⟨S8192, .f32⟩ : BufTy).Contents (Elt F) → (⟨S1x8192, .f32⟩ : BufTy).Contents (Elt F)) ]

/-- Operations 14–28: the first call's body, the row-wise log-softmax of `main_v8` (`main_v11`). -/
abbrev opsC : List (HloOp τ sig (Elt F)) :=
  [ TRef.nullary (TRef.of (T := ⟨S_, .f32⟩) main_call0_cst) (constant S_ .f32 0xFF800000#32),
    TRef.binary (TRef.of (T := ⟨S8192x8192, .f32⟩) main_v8) (TRef.of (T := ⟨S_, .f32⟩) main_call0_cst) (TRef.of (T := ⟨S8192, .f32⟩) main_call0_v0) (fun x v => Host.reduce FloatOps.maximumf x v reducesTo_S8192x8192_S8192_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S8192, .f32⟩) main_call0_v1) (broadcastInDim S8192 ![] bcast_S_S8192),
    TRef.binary (TRef.of (T := ⟨S8192, .f32⟩) main_call0_v1) (TRef.of (T := ⟨S8192, .f32⟩) main_call0_v0) (TRef.of (T := ⟨S8192, .f32⟩) main_call0_v2) maximumf,
    TRef.unary (TRef.of (T := ⟨S8192, .f32⟩) main_call0_v2) (TRef.of (T := ⟨S8192x1, .f32⟩) main_call0_v3) (broadcastInDim S8192x1 ![0] bcast_S8192_S8192x1_0),
    TRef.unary (TRef.of (T := ⟨S8192x1, .f32⟩) main_call0_v3) (TRef.of (T := ⟨S8192x8192, .f32⟩) main_call0_v4) (broadcastInDim S8192x8192 ![0, 1] bcast_S8192x1_S8192x8192_0_1),
    TRef.binary (TRef.of (T := ⟨S8192x8192, .f32⟩) main_v8) (TRef.of (T := ⟨S8192x8192, .f32⟩) main_call0_v4) (TRef.of (T := ⟨S8192x8192, .f32⟩) main_call0_v5) subf,
    TRef.unary (TRef.of (T := ⟨S8192x8192, .f32⟩) main_call0_v5) (TRef.of (T := ⟨S8192x8192, .f32⟩) main_call0_v6) Host.exp,
    TRef.nullary (TRef.of (T := ⟨S_, .f32⟩) main_call0_cst_1) (constant S_ .f32 0x00000000#32),
    TRef.binary (TRef.of (T := ⟨S8192x8192, .f32⟩) main_call0_v6) (TRef.of (T := ⟨S_, .f32⟩) main_call0_cst_1) (TRef.of (T := ⟨S8192, .f32⟩) main_call0_v7) (fun x v => Host.reduceAdd x v reducesTo_S8192x8192_S8192_d1 h_S_),
    TRef.unary (TRef.of (T := ⟨S8192, .f32⟩) main_call0_v7) (TRef.of (T := ⟨S8192x1, .f32⟩) main_call0_v8) (broadcastInDim S8192x1 ![0] bcast_S8192_S8192x1_0),
    TRef.unary (TRef.of (T := ⟨S8192x1, .f32⟩) main_call0_v8) (TRef.of (T := ⟨S8192x1, .f32⟩) main_call0_v9) Host.log,
    TRef.unary (TRef.of (T := ⟨S8192x1, .f32⟩) main_call0_v9) (TRef.of (T := ⟨S8192x8192, .f32⟩) main_call0_v10) (broadcastInDim S8192x8192 ![0, 1] bcast_S8192x1_S8192x8192_0_1),
    TRef.binary (TRef.of (T := ⟨S8192x8192, .f32⟩) main_call0_v5) (TRef.of (T := ⟨S8192x8192, .f32⟩) main_call0_v10) (TRef.of (T := ⟨S8192x8192, .f32⟩) main_v11) subf ]

/-- Operations 29–37: the mean over rows of the entropies of the first softmax (`main_v17`). -/
abbrev opsD : List (HloOp τ sig (Elt F)) :=
  [ unary main_v11 main_v12 (Host.exp : (⟨S8192x8192, .f32⟩ : BufTy).Contents (Elt F) → (⟨S8192x8192, .f32⟩ : BufTy).Contents (Elt F)),
    binary main_v12 main_v11 main_v13 (mulf : (⟨S8192x8192, .f32⟩ : BufTy).Contents (Elt F) → (⟨S8192x8192, .f32⟩ : BufTy).Contents (Elt F) → (⟨S8192x8192, .f32⟩ : BufTy).Contents (Elt F)),
    nullary main_cst_2 (constant S_ .f32 0x00000000#32),
    binary main_v13 main_cst_2 main_v14 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v14 main_v15 (Host.negf : (⟨S8192, .f32⟩ : BufTy).Contents (Elt F) → (⟨S8192, .f32⟩ : BufTy).Contents (Elt F)),
    nullary main_cst_3 (constant S_ .f32 0x00000000#32),
    binary main_v15 main_cst_3 main_v16 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_4 (constant S_ .f32 0x46000000#32),
    binary main_v16 main_cst_4 main_v17 (Host.divf : (⟨S_, .f32⟩ : BufTy).Contents (Elt F) → (⟨S_, .f32⟩ : BufTy).Contents (Elt F) → (⟨S_, .f32⟩ : BufTy).Contents (Elt F)) ]

/-- Operations 38–52: the second call's body, the log-softmax of the row `main_v10` (`main_v18`). -/
abbrev opsE : List (HloOp τ sig (Elt F)) :=
  [ TRef.nullary (TRef.of (T := ⟨S_, .f32⟩) main_call1_cst) (constant S_ .f32 0xFF800000#32),
    TRef.binary (TRef.of (T := ⟨S1x8192, .f32⟩) main_v10) (TRef.of (T := ⟨S_, .f32⟩) main_call1_cst) (TRef.of (T := ⟨S1, .f32⟩) main_call1_v0) (fun x v => Host.reduce FloatOps.maximumf x v reducesTo_S1x8192_S1_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S1, .f32⟩) main_call1_v1) (broadcastInDim S1 ![] bcast_S_S1),
    TRef.binary (TRef.of (T := ⟨S1, .f32⟩) main_call1_v1) (TRef.of (T := ⟨S1, .f32⟩) main_call1_v0) (TRef.of (T := ⟨S1, .f32⟩) main_call1_v2) maximumf,
    TRef.unary (TRef.of (T := ⟨S1, .f32⟩) main_call1_v2) (TRef.of (T := ⟨S1x1, .f32⟩) main_call1_v3) (broadcastInDim S1x1 ![0] bcast_S1_S1x1_0),
    TRef.unary (TRef.of (T := ⟨S1x1, .f32⟩) main_call1_v3) (TRef.of (T := ⟨S1x8192, .f32⟩) main_call1_v4) (broadcastInDim S1x8192 ![0, 1] bcast_S1x1_S1x8192_0_1),
    TRef.binary (TRef.of (T := ⟨S1x8192, .f32⟩) main_v10) (TRef.of (T := ⟨S1x8192, .f32⟩) main_call1_v4) (TRef.of (T := ⟨S1x8192, .f32⟩) main_call1_v5) subf,
    TRef.unary (TRef.of (T := ⟨S1x8192, .f32⟩) main_call1_v5) (TRef.of (T := ⟨S1x8192, .f32⟩) main_call1_v6) Host.exp,
    TRef.nullary (TRef.of (T := ⟨S_, .f32⟩) main_call1_cst_1) (constant S_ .f32 0x00000000#32),
    TRef.binary (TRef.of (T := ⟨S1x8192, .f32⟩) main_call1_v6) (TRef.of (T := ⟨S_, .f32⟩) main_call1_cst_1) (TRef.of (T := ⟨S1, .f32⟩) main_call1_v7) (fun x v => Host.reduceAdd x v reducesTo_S1x8192_S1_d1 h_S_),
    TRef.unary (TRef.of (T := ⟨S1, .f32⟩) main_call1_v7) (TRef.of (T := ⟨S1x1, .f32⟩) main_call1_v8) (broadcastInDim S1x1 ![0] bcast_S1_S1x1_0),
    TRef.unary (TRef.of (T := ⟨S1x1, .f32⟩) main_call1_v8) (TRef.of (T := ⟨S1x1, .f32⟩) main_call1_v9) Host.log,
    TRef.unary (TRef.of (T := ⟨S1x1, .f32⟩) main_call1_v9) (TRef.of (T := ⟨S1x8192, .f32⟩) main_call1_v10) (broadcastInDim S1x8192 ![0, 1] bcast_S1x1_S1x8192_0_1),
    TRef.binary (TRef.of (T := ⟨S1x8192, .f32⟩) main_call1_v5) (TRef.of (T := ⟨S1x8192, .f32⟩) main_call1_v10) (TRef.of (T := ⟨S1x8192, .f32⟩) main_v18) subf ]

/-- Operations 53–61: the entropy of the second softmax added to the mean of the first (`main_v25`). -/
abbrev opsF : List (HloOp τ sig (Elt F)) :=
  [ unary main_v18 main_v19 (Host.exp : (⟨S1x8192, .f32⟩ : BufTy).Contents (Elt F) → (⟨S1x8192, .f32⟩ : BufTy).Contents (Elt F)),
    binary main_v19 main_v18 main_v20 (mulf : (⟨S1x8192, .f32⟩ : BufTy).Contents (Elt F) → (⟨S1x8192, .f32⟩ : BufTy).Contents (Elt F) → (⟨S1x8192, .f32⟩ : BufTy).Contents (Elt F)),
    nullary main_cst_5 (constant S_ .f32 0x00000000#32),
    binary main_v20 main_cst_5 main_v21 ((fun x v => Host.reduceAdd x v reducesTo_S1x8192_S1_d1 h_S_) : (⟨S1x8192, .f32⟩ : BufTy).Contents (Elt F) → (⟨S_, .f32⟩ : BufTy).Contents (Elt F) → (⟨S1, .f32⟩ : BufTy).Contents (Elt F)),
    unary main_v21 main_v22 (Host.negf : (⟨S1, .f32⟩ : BufTy).Contents (Elt F) → (⟨S1, .f32⟩ : BufTy).Contents (Elt F)),
    unary main_v17 main_v23 (broadcastInDim S1 ![] bcast_S_S1 : (⟨S_, .f32⟩ : BufTy).Contents (Elt F) → (⟨S1, .f32⟩ : BufTy).Contents (Elt F)),
    binary main_v23 main_v22 main_v24 (addf : (⟨S1, .f32⟩ : BufTy).Contents (Elt F) → (⟨S1, .f32⟩ : BufTy).Contents (Elt F) → (⟨S1, .f32⟩ : BufTy).Contents (Elt F)),
    nullary main_cst_6 (constant S_ .f32 0x00000000#32),
    binary main_v24 main_cst_6 main_v25 ((fun x v => Host.reduceAdd x v reducesTo_S1_S_d0 h_S_) : (⟨S1, .f32⟩ : BufTy).Contents (Elt F) → (⟨S_, .f32⟩ : BufTy).Contents (Elt F) → (⟨S_, .f32⟩ : BufTy).Contents (Elt F)) ]

/-- The program's operations are the six pieces in a row. -/
theorem ops_split : (Cert.ReferenceIdeal.ValueP.ops (F := F)) = opsA ++ (opsB ++ (opsC ++ (opsD ++ (opsE ++ opsF)))) := rfl

/-! ## A call's operations, untyped

The operations of a called function are stated over references that carry the type of the value they hold, each
function moved to the reference's own type along the type equation. At a literal reference that equation is reflexive
and the typed operation IS the untyped one; said once for a reference carrying its own type, with the function a
variable, the identification is by computation on a small term. -/

/-- Equal heads on equal tails. -/
theorem cons_congr {α : Type} {a b : α} {l m : List α} (h : a = b) (t : l = m) : a :: l = b :: m := h ▸ t ▸ rfl

/-- A typed constant operation at a reference carrying its own type is the untyped one: the transport of its value is
    along a reflexive equation. -/
theorem nullary_of (y : Ref sig .tc) (h1 : y.space ≠ .host) (h2 : y.isScoped = false) (v : y.ty.Contents (Elt F)) :
    (TRef.nullary (⟨y, rfl, h1, h2⟩ : TRef sig y.ty) v : HloOp τ sig (Elt F))
      = StableHlo.nullary y v (TRef.dev ⟨y, rfl, h1, h2⟩) := rfl

/-- The same for an operation of one operand. -/
theorem unary_of (x y : Ref sig .tc) (hx1 : x.space ≠ .host) (hx2 : x.isScoped = false) (hy1 : y.space ≠ .host) (hy2 : y.isScoped = false)
    (f : x.ty.Contents (Elt F) → y.ty.Contents (Elt F)) :
    (TRef.unary (⟨x, rfl, hx1, hx2⟩ : TRef sig x.ty) (⟨y, rfl, hy1, hy2⟩ : TRef sig y.ty) f : HloOp τ sig (Elt F))
      = StableHlo.unary x y f (TRef.dev ⟨x, rfl, hx1, hx2⟩) (TRef.dev ⟨y, rfl, hy1, hy2⟩) := rfl

/-- The same for an operation of two operands. -/
theorem binary_of (a b y : Ref sig .tc) (ha1 : a.space ≠ .host) (ha2 : a.isScoped = false) (hb1 : b.space ≠ .host) (hb2 : b.isScoped = false)
    (hy1 : y.space ≠ .host) (hy2 : y.isScoped = false)
    (f : a.ty.Contents (Elt F) → b.ty.Contents (Elt F) → y.ty.Contents (Elt F)) :
    (TRef.binary (⟨a, rfl, ha1, ha2⟩ : TRef sig a.ty) (⟨b, rfl, hb1, hb2⟩ : TRef sig b.ty) (⟨y, rfl, hy1, hy2⟩ : TRef sig y.ty) f : HloOp τ sig (Elt F))
      = StableHlo.binary a b y f (TRef.dev ⟨a, rfl, ha1, ha2⟩) (TRef.dev ⟨b, rfl, hb1, hb2⟩) (TRef.dev ⟨y, rfl, hy1, hy2⟩) := rfl

/-- The first call's operations, untyped. -/
abbrev opsCp : List (HloOp τ sig (Elt F)) :=
  [ nullary main_call0_cst (constant S_ .f32 0xFF800000#32),
    binary main_v8 main_call0_cst main_call0_v0 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_call0_cst_0 (constant S_ .f32 0xFF800000#32),
    unary main_call0_cst_0 main_call0_v1 ((broadcastInDim S8192 ![] bcast_S_S8192) : (⟨S_, .f32⟩ : BufTy).Contents (Elt F) → (⟨S8192, .f32⟩ : BufTy).Contents (Elt F)),
    binary main_call0_v1 main_call0_v0 main_call0_v2 (maximumf : (⟨S8192, .f32⟩ : BufTy).Contents (Elt F) → (⟨S8192, .f32⟩ : BufTy).Contents (Elt F) → (⟨S8192, .f32⟩ : BufTy).Contents (Elt F)),
    unary main_call0_v2 main_call0_v3 ((broadcastInDim S8192x1 ![0] bcast_S8192_S8192x1_0) : (⟨S8192, .f32⟩ : BufTy).Contents (Elt F) → (⟨S8192x1, .f32⟩ : BufTy).Contents (Elt F)),
    unary main_call0_v3 main_call0_v4 ((broadcastInDim S8192x8192 ![0, 1] bcast_S8192x1_S8192x8192_0_1) : (⟨S8192x1, .f32⟩ : BufTy).Contents (Elt F) → (⟨S8192x8192, .f32⟩ : BufTy).Contents (Elt F)),
    binary main_v8 main_call0_v4 main_call0_v5 (subf : (⟨S8192x8192, .f32⟩ : BufTy).Contents (Elt F) → (⟨S8192x8192, .f32⟩ : BufTy).Contents (Elt F) → (⟨S8192x8192, .f32⟩ : BufTy).Contents (Elt F)),
    unary main_call0_v5 main_call0_v6 (Host.exp : (⟨S8192x8192, .f32⟩ : BufTy).Contents (Elt F) → (⟨S8192x8192, .f32⟩ : BufTy).Contents (Elt F)),
    nullary main_call0_cst_1 (constant S_ .f32 0x00000000#32),
    binary main_call0_v6 main_call0_cst_1 main_call0_v7 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_call0_v7 main_call0_v8 ((broadcastInDim S8192x1 ![0] bcast_S8192_S8192x1_0) : (⟨S8192, .f32⟩ : BufTy).Contents (Elt F) → (⟨S8192x1, .f32⟩ : BufTy).Contents (Elt F)),
    unary main_call0_v8 main_call0_v9 (Host.log : (⟨S8192x1, .f32⟩ : BufTy).Contents (Elt F) → (⟨S8192x1, .f32⟩ : BufTy).Contents (Elt F)),
    unary main_call0_v9 main_call0_v10 ((broadcastInDim S8192x8192 ![0, 1] bcast_S8192x1_S8192x8192_0_1) : (⟨S8192x1, .f32⟩ : BufTy).Contents (Elt F) → (⟨S8192x8192, .f32⟩ : BufTy).Contents (Elt F)),
    binary main_call0_v5 main_call0_v10 main_v11 (subf : (⟨S8192x8192, .f32⟩ : BufTy).Contents (Elt F) → (⟨S8192x8192, .f32⟩ : BufTy).Contents (Elt F) → (⟨S8192x8192, .f32⟩ : BufTy).Contents (Elt F)) ]

theorem opsC_eq : (opsC (F := F)) = opsCp :=
  cons_congr (nullary_of main_call0_cst (by decide) rfl (constant S_ .f32 0xFF800000#32)) <|
  cons_congr (binary_of main_v8 main_call0_cst main_call0_v0 (by decide) rfl (by decide) rfl (by decide) rfl (fun x v => Host.reduce FloatOps.maximumf x v reducesTo_S8192x8192_S8192_d1 h_S_)) <|
  cons_congr (nullary_of main_call0_cst_0 (by decide) rfl (constant S_ .f32 0xFF800000#32)) <|
  cons_congr (unary_of main_call0_cst_0 main_call0_v1 (by decide) rfl (by decide) rfl (broadcastInDim S8192 ![] bcast_S_S8192)) <|
  cons_congr (binary_of main_call0_v1 main_call0_v0 main_call0_v2 (by decide) rfl (by decide) rfl (by decide) rfl maximumf) <|
  cons_congr (unary_of main_call0_v2 main_call0_v3 (by decide) rfl (by decide) rfl (broadcastInDim S8192x1 ![0] bcast_S8192_S8192x1_0)) <|
  cons_congr (unary_of main_call0_v3 main_call0_v4 (by decide) rfl (by decide) rfl (broadcastInDim S8192x8192 ![0, 1] bcast_S8192x1_S8192x8192_0_1)) <|
  cons_congr (binary_of main_v8 main_call0_v4 main_call0_v5 (by decide) rfl (by decide) rfl (by decide) rfl subf) <|
  cons_congr (unary_of main_call0_v5 main_call0_v6 (by decide) rfl (by decide) rfl Host.exp) <|
  cons_congr (nullary_of main_call0_cst_1 (by decide) rfl (constant S_ .f32 0x00000000#32)) <|
  cons_congr (binary_of main_call0_v6 main_call0_cst_1 main_call0_v7 (by decide) rfl (by decide) rfl (by decide) rfl (fun x v => Host.reduceAdd x v reducesTo_S8192x8192_S8192_d1 h_S_)) <|
  cons_congr (unary_of main_call0_v7 main_call0_v8 (by decide) rfl (by decide) rfl (broadcastInDim S8192x1 ![0] bcast_S8192_S8192x1_0)) <|
  cons_congr (unary_of main_call0_v8 main_call0_v9 (by decide) rfl (by decide) rfl Host.log) <|
  cons_congr (unary_of main_call0_v9 main_call0_v10 (by decide) rfl (by decide) rfl (broadcastInDim S8192x8192 ![0, 1] bcast_S8192x1_S8192x8192_0_1)) <|
  cons_congr (binary_of main_call0_v5 main_call0_v10 main_v11 (by decide) rfl (by decide) rfl (by decide) rfl subf) <|
  rfl

/-- The second call's operations, untyped. -/
abbrev opsEp : List (HloOp τ sig (Elt F)) :=
  [ nullary main_call1_cst (constant S_ .f32 0xFF800000#32),
    binary main_v10 main_call1_cst main_call1_v0 ((fun x v => Host.reduce FloatOps.maximumf x v reducesTo_S1x8192_S1_d1 h_S_) : (⟨S1x8192, .f32⟩ : BufTy).Contents (Elt F) → (⟨S_, .f32⟩ : BufTy).Contents (Elt F) → (⟨S1, .f32⟩ : BufTy).Contents (Elt F)),
    nullary main_call1_cst_0 (constant S_ .f32 0xFF800000#32),
    unary main_call1_cst_0 main_call1_v1 ((broadcastInDim S1 ![] bcast_S_S1) : (⟨S_, .f32⟩ : BufTy).Contents (Elt F) → (⟨S1, .f32⟩ : BufTy).Contents (Elt F)),
    binary main_call1_v1 main_call1_v0 main_call1_v2 (maximumf : (⟨S1, .f32⟩ : BufTy).Contents (Elt F) → (⟨S1, .f32⟩ : BufTy).Contents (Elt F) → (⟨S1, .f32⟩ : BufTy).Contents (Elt F)),
    unary main_call1_v2 main_call1_v3 ((broadcastInDim S1x1 ![0] bcast_S1_S1x1_0) : (⟨S1, .f32⟩ : BufTy).Contents (Elt F) → (⟨S1x1, .f32⟩ : BufTy).Contents (Elt F)),
    unary main_call1_v3 main_call1_v4 ((broadcastInDim S1x8192 ![0, 1] bcast_S1x1_S1x8192_0_1) : (⟨S1x1, .f32⟩ : BufTy).Contents (Elt F) → (⟨S1x8192, .f32⟩ : BufTy).Contents (Elt F)),
    binary main_v10 main_call1_v4 main_call1_v5 (subf : (⟨S1x8192, .f32⟩ : BufTy).Contents (Elt F) → (⟨S1x8192, .f32⟩ : BufTy).Contents (Elt F) → (⟨S1x8192, .f32⟩ : BufTy).Contents (Elt F)),
    unary main_call1_v5 main_call1_v6 (Host.exp : (⟨S1x8192, .f32⟩ : BufTy).Contents (Elt F) → (⟨S1x8192, .f32⟩ : BufTy).Contents (Elt F)),
    nullary main_call1_cst_1 (constant S_ .f32 0x00000000#32),
    binary main_call1_v6 main_call1_cst_1 main_call1_v7 ((fun x v => Host.reduceAdd x v reducesTo_S1x8192_S1_d1 h_S_) : (⟨S1x8192, .f32⟩ : BufTy).Contents (Elt F) → (⟨S_, .f32⟩ : BufTy).Contents (Elt F) → (⟨S1, .f32⟩ : BufTy).Contents (Elt F)),
    unary main_call1_v7 main_call1_v8 ((broadcastInDim S1x1 ![0] bcast_S1_S1x1_0) : (⟨S1, .f32⟩ : BufTy).Contents (Elt F) → (⟨S1x1, .f32⟩ : BufTy).Contents (Elt F)),
    unary main_call1_v8 main_call1_v9 (Host.log : (⟨S1x1, .f32⟩ : BufTy).Contents (Elt F) → (⟨S1x1, .f32⟩ : BufTy).Contents (Elt F)),
    unary main_call1_v9 main_call1_v10 ((broadcastInDim S1x8192 ![0, 1] bcast_S1x1_S1x8192_0_1) : (⟨S1x1, .f32⟩ : BufTy).Contents (Elt F) → (⟨S1x8192, .f32⟩ : BufTy).Contents (Elt F)),
    binary main_call1_v5 main_call1_v10 main_v18 (subf : (⟨S1x8192, .f32⟩ : BufTy).Contents (Elt F) → (⟨S1x8192, .f32⟩ : BufTy).Contents (Elt F) → (⟨S1x8192, .f32⟩ : BufTy).Contents (Elt F)) ]

theorem opsE_eq : (opsE (F := F)) = opsEp :=
  cons_congr (nullary_of main_call1_cst (by decide) rfl (constant S_ .f32 0xFF800000#32)) <|
  cons_congr (binary_of main_v10 main_call1_cst main_call1_v0 (by decide) rfl (by decide) rfl (by decide) rfl (fun x v => Host.reduce FloatOps.maximumf x v reducesTo_S1x8192_S1_d1 h_S_)) <|
  cons_congr (nullary_of main_call1_cst_0 (by decide) rfl (constant S_ .f32 0xFF800000#32)) <|
  cons_congr (unary_of main_call1_cst_0 main_call1_v1 (by decide) rfl (by decide) rfl (broadcastInDim S1 ![] bcast_S_S1)) <|
  cons_congr (binary_of main_call1_v1 main_call1_v0 main_call1_v2 (by decide) rfl (by decide) rfl (by decide) rfl maximumf) <|
  cons_congr (unary_of main_call1_v2 main_call1_v3 (by decide) rfl (by decide) rfl (broadcastInDim S1x1 ![0] bcast_S1_S1x1_0)) <|
  cons_congr (unary_of main_call1_v3 main_call1_v4 (by decide) rfl (by decide) rfl (broadcastInDim S1x8192 ![0, 1] bcast_S1x1_S1x8192_0_1)) <|
  cons_congr (binary_of main_v10 main_call1_v4 main_call1_v5 (by decide) rfl (by decide) rfl (by decide) rfl subf) <|
  cons_congr (unary_of main_call1_v5 main_call1_v6 (by decide) rfl (by decide) rfl Host.exp) <|
  cons_congr (nullary_of main_call1_cst_1 (by decide) rfl (constant S_ .f32 0x00000000#32)) <|
  cons_congr (binary_of main_call1_v6 main_call1_cst_1 main_call1_v7 (by decide) rfl (by decide) rfl (by decide) rfl (fun x v => Host.reduceAdd x v reducesTo_S1x8192_S1_d1 h_S_)) <|
  cons_congr (unary_of main_call1_v7 main_call1_v8 (by decide) rfl (by decide) rfl (broadcastInDim S1x1 ![0] bcast_S1_S1x1_0)) <|
  cons_congr (unary_of main_call1_v8 main_call1_v9 (by decide) rfl (by decide) rfl Host.log) <|
  cons_congr (unary_of main_call1_v9 main_call1_v10 (by decide) rfl (by decide) rfl (broadcastInDim S1x8192 ![0, 1] bcast_S1x1_S1x8192_0_1)) <|
  cons_congr (binary_of main_call1_v5 main_call1_v10 main_v18 (by decide) rfl (by decide) rfl (by decide) rfl subf) <|
  rfl

/-! ## What each piece leaves, from ANY contents `W`

Each lemma reads one buffer after one piece: a buffer the piece computes holds the stage function of the argument
`x0` once the buffers the piece reads hold theirs; a buffer the piece does not write keeps its contents. -/

theorem chunkA (W : Valuation τ sig (Elt F)) :
    StableHlo.after (opsA (F := F)) W (Proc.devRef .tc main_v7) = val_main_v7 (F := F) (W (Proc.devRef .tc main_arg0)) := by
  after_results_simp
  rfl

theorem chunkB8 (W : Valuation τ sig (Elt F)) (x0 : (⟨S8192x512, .f32⟩ : BufTy).Contents (Elt F))
    (h7 : W (Proc.devRef .tc main_v7) = val_main_v7 (F := F) x0) :
    StableHlo.after (opsB (F := F)) W (Proc.devRef .tc main_v8) = val_main_v8 (F := F) x0 := by
  after_results_simp
  rw [h7]
  rfl

theorem chunkB10 (W : Valuation τ sig (Elt F)) (x0 : (⟨S8192x512, .f32⟩ : BufTy).Contents (Elt F))
    (h7 : W (Proc.devRef .tc main_v7) = val_main_v7 (F := F) x0) :
    StableHlo.after (opsB (F := F)) W (Proc.devRef .tc main_v10) = val_main_v10 (F := F) x0 := by
  after_results_simp
  rw [h7]
  rfl

theorem chunkC11 (W : Valuation τ sig (Elt F)) (x0 : (⟨S8192x512, .f32⟩ : BufTy).Contents (Elt F))
    (h8 : W (Proc.devRef .tc main_v8) = val_main_v8 (F := F) x0) :
    StableHlo.after (opsC (F := F)) W (Proc.devRef .tc main_v11) = val_main_v11 (F := F) x0 := by
  rw [opsC_eq]
  after_results_simp
  rw [h8]
  rfl

theorem chunkD17 (W : Valuation τ sig (Elt F)) (x0 : (⟨S8192x512, .f32⟩ : BufTy).Contents (Elt F))
    (h11 : W (Proc.devRef .tc main_v11) = val_main_v11 (F := F) x0) :
    StableHlo.after (opsD (F := F)) W (Proc.devRef .tc main_v17) = val_main_v17 (F := F) x0 := by
  after_results_simp
  rw [h11]
  rfl

theorem chunkE18 (W : Valuation τ sig (Elt F)) (x0 : (⟨S8192x512, .f32⟩ : BufTy).Contents (Elt F))
    (h10 : W (Proc.devRef .tc main_v10) = val_main_v10 (F := F) x0) :
    StableHlo.after (opsE (F := F)) W (Proc.devRef .tc main_v18) = val_main_v18 (F := F) x0 := by
  rw [opsE_eq]
  after_results_simp
  rw [h10]
  rfl

theorem chunkF (W : Valuation τ sig (Elt F)) (x0 : (⟨S8192x512, .f32⟩ : BufTy).Contents (Elt F))
    (h18 : W (Proc.devRef .tc main_v18) = val_main_v18 (F := F) x0)
    (h17 : W (Proc.devRef .tc main_v17) = val_main_v17 (F := F) x0) :
    StableHlo.after (opsF (F := F)) W (Proc.devRef .tc main_v25) = val_main_v25 (F := F) x0 := by
  after_results_simp
  rw [h18, h17]
  rfl

theorem chunkC_v10 (W : Valuation τ sig (Elt F)) :
    StableHlo.after (opsC (F := F)) W (Proc.devRef .tc main_v10) = W (Proc.devRef .tc main_v10) := by
  rw [opsC_eq]
  after_results_simp

theorem chunkD_v10 (W : Valuation τ sig (Elt F)) :
    StableHlo.after (opsD (F := F)) W (Proc.devRef .tc main_v10) = W (Proc.devRef .tc main_v10) := by
  after_results_simp

theorem chunkE_v17 (W : Valuation τ sig (Elt F)) :
    StableHlo.after (opsE (F := F)) W (Proc.devRef .tc main_v17) = W (Proc.devRef .tc main_v17) := by
  rw [opsE_eq]
  after_results_simp

theorem chunkA_arg0 (W : Valuation τ sig (Elt F)) :
    StableHlo.after (opsA (F := F)) W (Proc.devRef .tc main_arg0) = W (Proc.devRef .tc main_arg0) := by
  after_results_simp

theorem chunkB_arg0 (W : Valuation τ sig (Elt F)) :
    StableHlo.after (opsB (F := F)) W (Proc.devRef .tc main_arg0) = W (Proc.devRef .tc main_arg0) := by
  after_results_simp

theorem chunkC_arg0 (W : Valuation τ sig (Elt F)) :
    StableHlo.after (opsC (F := F)) W (Proc.devRef .tc main_arg0) = W (Proc.devRef .tc main_arg0) := by
  rw [opsC_eq]
  after_results_simp

theorem chunkD_arg0 (W : Valuation τ sig (Elt F)) :
    StableHlo.after (opsD (F := F)) W (Proc.devRef .tc main_arg0) = W (Proc.devRef .tc main_arg0) := by
  after_results_simp

theorem chunkE_arg0 (W : Valuation τ sig (Elt F)) :
    StableHlo.after (opsE (F := F)) W (Proc.devRef .tc main_arg0) = W (Proc.devRef .tc main_arg0) := by
  rw [opsE_eq]
  after_results_simp

theorem chunkF_arg0 (W : Valuation τ sig (Elt F)) :
    StableHlo.after (opsF (F := F)) W (Proc.devRef .tc main_arg0) = W (Proc.devRef .tc main_arg0) := by
  after_results_simp

/-! ## The whole program -/

/-- The fold over the whole program is the folds over the pieces, in order. -/
theorem after_split (V : Valuation τ sig (Elt F)) :
    StableHlo.after (Cert.ReferenceIdeal.ValueP.ops (F := F)) V
      = StableHlo.after opsF (StableHlo.after opsE (StableHlo.after opsD (StableHlo.after opsC (StableHlo.after opsB (StableHlo.after opsA V))))) := by
  rw [ops_split, StableHlo.after_append, StableHlo.after_append, StableHlo.after_append, StableHlo.after_append, StableHlo.after_append]

/-- After the program's 62 operations the result buffer holds the last stage function of the argument's contents. -/
theorem after_ops (V : Valuation τ sig (Elt F)) :
    StableHlo.after (Cert.ReferenceIdeal.ValueP.ops (F := F)) V (Proc.devRef .tc main_v25)
      = Cert.ReferenceIdeal.ReadP.val_main_v25 (F := F) (V (Proc.devRef .tc main_arg0)) := by
  rw [after_split]
  have hA := chunkA (F := F) V
  have hB8 := chunkB8 _ _ hA
  have hB10 := chunkB10 _ _ hA
  have hC11 := chunkC11 _ _ hB8
  have hC10 := (chunkC_v10 _).trans hB10
  have hD17 := chunkD17 _ _ hC11
  have hD10 := (chunkD_v10 _).trans hC10
  have hE18 := chunkE18 _ _ hD10
  have hE17 := (chunkE_v17 _).trans hD17
  exact chunkF _ _ hE18 hE17

/-- No operation writes the argument: it ends as launched. -/
theorem after_ops_arg0 (V : Valuation τ sig (Elt F)) :
    StableHlo.after (Cert.ReferenceIdeal.ValueP.ops (F := F)) V (Proc.devRef .tc main_arg0) = V (Proc.devRef .tc main_arg0) := by
  rw [after_split, chunkF_arg0, chunkE_arg0, chunkD_arg0, chunkC_arg0, chunkB_arg0, chunkA_arg0]

/-- On every device, for any float values, from any memory with zero counters: every weakly fair execution of @main
    terminates with the result buffer at the last stage function of the argument as launched, and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v25) = Cert.ReferenceIdeal.ReadP.val_main_v25 (F := F) (m ((c.tc : Thread nD τ).loc main_arg0))
      ∧ r.2.mem ((c.tc : Thread nD τ).loc main_arg0) = m ((c.tc : Thread nD τ).loc main_arg0) :=
  (θ_run defs _ _).mono (fun _ h c => ⟨(h c main_v25).trans (after_ops (F := F) (fun b => m (c, b))),
      (h c main_arg0).trans (after_ops_arg0 (F := F) (fun b => m (c, b)))⟩)
    (Cert.ReferenceIdeal.ValueP.run_after m ρ)

end Cert.ReferenceIdeal.RefRun

end
-- ==== Proof.RefValue.lean ====
/- The reference program's result, read at its one index, as the closed formula lossR of the normalized matrix P:
   the Gram matrix G = P·Pᵀ, its column sums, the log-softmax of each row of G and of the row of column sums (row
   maximum folded from -∞, shift, exponential, sum, logarithm, difference), the entropy - Σ exp(lp)·lp of each, the
   mean of the row entropies over the 8192 rows plus the entropy of the column sums. Each stage is read at an index
   from the stages before it; P itself stays one opaque matrix. -/
import proofs.«125946_j49383533969545_2_alg».proof.Proof.RefRead
import proofs.«125946_j49383533969545_2_alg».proof.Proof.Spec
import proofs.«125946_j49383533969545_2_alg».proof.Proof.LibEntropy
import Idealize.ShloMosaic.PureOps.Reduce
import Idealize.ShloMosaic.Lib.ValueIdx
import Idealize.ShloMosaic.PureOps.Ideal.Laws

noncomputable section

namespace Cert.ReferenceIdeal.RefValue

open Cert.ReferenceIdeal Cert.ReferenceIdeal.ReadP Idealize.ShloMosaic Idealize.ShloMosaic.TcCoe Idealize.SL.Sem
  Idealize.ShloMosaic.StableHlo Idealize.ShloMosaic.ValueIdx Cert.Spec Cert.Entropy
open scoped BigOperators

/-! ### Words and index sets -/

/-- The single-precision word 0xFF800000 (sign 1, exponent field all ones, fraction 0) denotes -∞. -/
theorem ofBits_neginf : Ideal.ofBits .f32 0xFF800000#32 = ⊥ := by
  simp [Ideal.ofBits, Ideal.ieee]

/-- A rank-1 index set is its coordinate range. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over the coordinate. -/
theorem sum_idx1 {M : Type} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ### The Gram matrix and its column sums -/

/-- Stage v8 at (c, d) is the Gram matrix of P there. -/
theorem v8_at (x : (⟨S8192x512, .f32⟩ : BufTy).Contents (Elt Ideal)) (c d : Fin 8192) :
    val_main_v8 (F := Ideal) x (ix2 c d) = gram (val_main_v7 (F := Ideal) x) c d := by
  rw [val_main_v8_apply]
  generalize val_main_v7 (F := Ideal) x = Pm
  unfold gram
  refine Finset.sum_congr rfl fun k _ => ?_
  have el : lidx_main_v8 (ix2 c d) k = ix2 c k :=
    funext fun a => Fin.ext (by match a with | ⟨0, _⟩ => rfl | ⟨1, _⟩ => rfl)
  have er : ridx_main_v8 (ix2 c d) k = ix2 d k :=
    funext fun a => Fin.ext (by match a with | ⟨0, _⟩ => rfl | ⟨1, _⟩ => rfl)
  rw [el, er]

/-- Stage v9 at d is the d-th column sum of the Gram matrix. -/
theorem v9_at (x : (⟨S8192x512, .f32⟩ : BufTy).Contents (Elt Ideal)) (d : Fin 8192) :
    val_main_v9 (F := Ideal) x (ix1 d) = colR (val_main_v7 (F := Ideal) x) d := by
  rw [val_main_v9_apply, val_main_cst_1_apply, Ideal.ofBits_def, Ideal.ofBits_zero_f32, zero_add]
  unfold colR
  refine Finset.sum_congr rfl fun k _ => ?_
  have e : idx_main_v9 (ix1 d) k = ix2 k d :=
    funext fun a => Fin.ext (by match a with | ⟨0, _⟩ => rfl | ⟨1, _⟩ => rfl)
  rw [e, v8_at]

/-- Stage v10, the column sums as a row, at (z, d) is the d-th column sum. -/
theorem v10_at (x : (⟨S8192x512, .f32⟩ : BufTy).Contents (Elt Ideal)) (z : Fin 1) (d : Fin 8192) :
    val_main_v10 (F := Ideal) x (ix2 z d) = colR (val_main_v7 (F := Ideal) x) d := by
  rw [val_main_v10_apply]
  have e : idx_main_v10 (ix2 z d) = ix1 d := funext fun a => Fin.ext (by match a with | ⟨0, _⟩ => rfl)
  rw [e, v9_at]

/-! ### A row maximum folded from -∞ -/

/-- The reduced index c with column k put back is (c, k). -/
theorem lift_row {m n : Nat} (h : (⟨2, ![m, n]⟩ : Shape).Reduces [1] (⟨1, ![m]⟩ : Shape)) (c : Fin m)
    (k : Fin ((⟨2, ![m, n]⟩ : Shape).size 1)) : h.lift (ix1 c) k = ix2 c (⟨k.val, k.isLt⟩ : Fin n) := by
  funext a; apply Fin.ext
  fin_cases a <;> rfl

/-- A reduce with a maximum body along the rows, from the word of -∞, at row c is the maximum of that row
    folded from -∞. -/
theorem reduce_max_row {m n : Nat} (y : FVec Ideal ⟨2, ![m, n]⟩ .f32)
    (h' : (⟨2, ![m, n]⟩ : Shape).ReducesTo [1] (⟨1, ![m]⟩ : Shape))
    (h : (⟨2, ![m, n]⟩ : Shape).Reduces [1] (⟨1, ![m]⟩ : Shape)) (hu : 0 < (⟨0, ![]⟩ : Shape).numel) (c : Fin m) :
    Host.reduce FloatOps.maximumf y (constant (⟨0, ![]⟩ : Shape) .f32 0xFF800000#32) h' hu (ix1 c)
      = (Finset.univ : Finset (Fin n)).fold max (⊥ : EReal) (fun k => y (ix2 c k)) := by
  rw [Host.reduce_eq_fold_single FloatOps.maximumf y _ h' h hu]
  have hf : (y ∘ h.lift (ix1 c)) = fun k : Fin n => y (ix2 c k) := funext fun k => congrArg y (lift_row h c k)
  have hi : (constant (F := Ideal) (⟨0, ![]⟩ : Shape) .f32 0xFF800000#32) (Shape.Idx.first hu) = (⊥ : EReal) :=
    ofBits_neginf
  rw [hi]
  exact congrArg (fun f => Finset.fold max (⊥ : EReal) f (Finset.univ : Finset (Fin n))) hf

/-! ### The log-softmax of each row of the Gram matrix -/

/-- The row maximum of the Gram matrix at row c. -/
theorem call0_v0_at (x : (⟨S8192x512, .f32⟩ : BufTy).Contents (Elt Ideal)) (c : Fin 8192) :
    val_main_call0_v0 (F := Ideal) x (ix1 c) = fmax (gram (val_main_v7 (F := Ideal) x) c) := by
  unfold val_main_call0_v0 val_main_call0_cst
  rw [reduce_max_row (val_main_v8 (F := Ideal) x) _ (by decide) _ c]
  unfold fmax
  exact congrArg (fun f => Finset.fold max (⊥ : EReal) f (Finset.univ : Finset (Fin 8192)))
    (funext fun k => v8_at x c k)

/-- The larger of -∞ and the row maximum is the row maximum. -/
theorem call0_v2_at (x : (⟨S8192x512, .f32⟩ : BufTy).Contents (Elt Ideal)) (c : Fin 8192) :
    val_main_call0_v2 (F := Ideal) x (ix1 c) = fmax (gram (val_main_v7 (F := Ideal) x) c) := by
  rw [val_main_call0_v2_apply, val_main_call0_v1_apply, val_main_call0_cst_0_apply, Ideal.ofBits_def, ofBits_neginf,
    Ideal.maximumf_def, call0_v0_at]
  exact max_eq_right bot_le

/-- The row maximum broadcast along the row. -/
theorem call0_v4_at (x : (⟨S8192x512, .f32⟩ : BufTy).Contents (Elt Ideal)) (c d : Fin 8192) :
    val_main_call0_v4 (F := Ideal) x (ix2 c d) = fmax (gram (val_main_v7 (F := Ideal) x) c) := by
  rw [val_main_call0_v4_apply, val_main_call0_v3_apply]
  have e : idx_main_call0_v3 (idx_main_call0_v4 (ix2 c d)) = ix1 c :=
    funext fun a => Fin.ext (by match a with | ⟨0, _⟩ => rfl)
  rw [e, call0_v2_at]

/-- The Gram row shifted by its maximum. -/
theorem call0_v5_at (x : (⟨S8192x512, .f32⟩ : BufTy).Contents (Elt Ideal)) (c d : Fin 8192) :
    val_main_call0_v5 (F := Ideal) x (ix2 c d)
      = shift (gram (val_main_v7 (F := Ideal) x) c) (fmax (gram (val_main_v7 (F := Ideal) x) c)) d := by
  rw [val_main_call0_v5_apply, Ideal.subf_def, v8_at, call0_v4_at]
  rfl

/-- The sum of the exponentials of the shifted row. -/
theorem call0_v7_at (x : (⟨S8192x512, .f32⟩ : BufTy).Contents (Elt Ideal)) (c : Fin 8192) :
    val_main_call0_v7 (F := Ideal) x (ix1 c)
      = Z (gram (val_main_v7 (F := Ideal) x) c) (fmax (gram (val_main_v7 (F := Ideal) x) c)) := by
  rw [val_main_call0_v7_apply, val_main_call0_cst_1_apply, Ideal.ofBits_def, Ideal.ofBits_zero_f32, zero_add]
  unfold Z
  refine Finset.sum_congr rfl fun k _ => ?_
  have e : idx_main_call0_v7 (ix1 c) k = ix2 c k :=
    funext fun a => Fin.ext (by match a with | ⟨0, _⟩ => rfl | ⟨1, _⟩ => rfl)
  rw [e, val_main_call0_v6_apply, Ideal.hostUnary_exp_def, call0_v5_at]

/-- The logarithm of that sum, broadcast along the row. -/
theorem call0_v10_at (x : (⟨S8192x512, .f32⟩ : BufTy).Contents (Elt Ideal)) (c d : Fin 8192) :
    val_main_call0_v10 (F := Ideal) x (ix2 c d)
      = Ideal.log (Z (gram (val_main_v7 (F := Ideal) x) c) (fmax (gram (val_main_v7 (F := Ideal) x) c))) := by
  rw [val_main_call0_v10_apply, val_main_call0_v9_apply, Ideal.hostUnary_log_def, val_main_call0_v8_apply]
  have e : idx_main_call0_v8 (idx_main_call0_v10 (ix2 c d)) = ix1 c :=
    funext fun a => Fin.ext (by match a with | ⟨0, _⟩ => rfl)
  rw [e, call0_v7_at]

/-- Stage v11, the log-softmax of the Gram row c at d: the shifted entry less the logarithm of the sum. -/
theorem v11_at (x : (⟨S8192x512, .f32⟩ : BufTy).Contents (Elt Ideal)) (c d : Fin 8192) :
    val_main_v11 (F := Ideal) x (ix2 c d)
      = shift (gram (val_main_v7 (F := Ideal) x) c) (fmax (gram (val_main_v7 (F := Ideal) x) c)) d
        - Ideal.log (Z (gram (val_main_v7 (F := Ideal) x) c) (fmax (gram (val_main_v7 (F := Ideal) x) c))) := by
  rw [val_main_v11_apply, Ideal.subf_def, call0_v5_at, call0_v10_at]

/-! ### The entropy of each row, and their mean -/

/-- Stage v15 at row c: the entropy - Σ exp(lp)·lp of the Gram row's softmax. -/
theorem v15_at (x : (⟨S8192x512, .f32⟩ : BufTy).Contents (Elt Ideal)) (c : Fin 8192) :
    val_main_v15 (F := Ideal) x (ix1 c)
      = entR (gram (val_main_v7 (F := Ideal) x) c) (fmax (gram (val_main_v7 (F := Ideal) x) c)) := by
  rw [val_main_v15_apply, Ideal.hostNegf_def, Ideal.negf_def, val_main_v14_apply, val_main_cst_2_apply,
    Ideal.ofBits_def, Ideal.ofBits_zero_f32, zero_add]
  unfold entR
  refine congrArg Neg.neg (Finset.sum_congr rfl fun k _ => ?_)
  have e : idx_main_v14 (ix1 c) k = ix2 c k :=
    funext fun a => Fin.ext (by match a with | ⟨0, _⟩ => rfl | ⟨1, _⟩ => rfl)
  rw [e, val_main_v13_apply, Ideal.mulf_def, val_main_v12_apply, Ideal.hostUnary_exp_def, v11_at]

/-- Stage v17 at its one index: the sum of the row entropies divided by the word of 8192. -/
theorem v17_at (x : (⟨S8192x512, .f32⟩ : BufTy).Contents (Elt Ideal)) :
    val_main_v17 (F := Ideal) x ix0
      = Ideal.div (∑ c : Fin 8192, entR (gram (val_main_v7 (F := Ideal) x) c) (fmax (gram (val_main_v7 (F := Ideal) x) c)))
          (Ideal.ofBits .f32 0x46000000#32) := by
  rw [val_main_v17_apply, Ideal.hostDivf_def, val_main_cst_4_apply, Ideal.ofBits_def, val_main_v16_apply,
    val_main_cst_3_apply, Ideal.ofBits_def, Ideal.ofBits_zero_f32, zero_add, sum_idx1]
  exact congrArg (fun s => Ideal.div s (Ideal.ofBits .f32 0x46000000#32))
    (Finset.sum_congr rfl fun c _ => v15_at x c)

/-! ### The log-softmax and the entropy of the row of column sums -/

/-- The maximum of the row of column sums. -/
theorem call1_v0_at (x : (⟨S8192x512, .f32⟩ : BufTy).Contents (Elt Ideal)) (z : Fin 1) :
    val_main_call1_v0 (F := Ideal) x (ix1 z) = fmax (colR (val_main_v7 (F := Ideal) x)) := by
  unfold val_main_call1_v0 val_main_call1_cst
  rw [reduce_max_row (val_main_v10 (F := Ideal) x) _ (by decide) _ z]
  unfold fmax
  exact congrArg (fun f => Finset.fold max (⊥ : EReal) f (Finset.univ : Finset (Fin 8192)))
    (funext fun k => v10_at x z k)

/-- The larger of -∞ and that maximum is that maximum. -/
theorem call1_v2_at (x : (⟨S8192x512, .f32⟩ : BufTy).Contents (Elt Ideal)) (z : Fin 1) :
    val_main_call1_v2 (F := Ideal) x (ix1 z) = fmax (colR (val_main_v7 (F := Ideal) x)) := by
  rw [val_main_call1_v2_apply, val_main_call1_v1_apply, val_main_call1_cst_0_apply, Ideal.ofBits_def, ofBits_neginf,
    Ideal.maximumf_def, call1_v0_at]
  exact max_eq_right bot_le

/-- The maximum broadcast along the row. -/
theorem call1_v4_at (x : (⟨S8192x512, .f32⟩ : BufTy).Contents (Elt Ideal)) (z : Fin 1) (d : Fin 8192) :
    val_main_call1_v4 (F := Ideal) x (ix2 z d) = fmax (colR (val_main_v7 (F := Ideal) x)) := by
  rw [val_main_call1_v4_apply, val_main_call1_v3_apply]
  have e : idx_main_call1_v3 (idx_main_call1_v4 (ix2 z d)) = ix1 (0 : Fin 1) :=
    funext fun a => Fin.ext (by match a with | ⟨0, _⟩ => rfl)
  rw [e, call1_v2_at]

/-- The row of column sums shifted by its maximum. -/
theorem call1_v5_at (x : (⟨S8192x512, .f32⟩ : BufTy).Contents (Elt Ideal)) (z : Fin 1) (d : Fin 8192) :
    val_main_call1_v5 (F := Ideal) x (ix2 z d) = shift (colR (val_main_v7 (F := Ideal) x)) (fmax (colR (val_main_v7 (F := Ideal) x))) d := by
  rw [val_main_call1_v5_apply, Ideal.subf_def, v10_at, call1_v4_at]
  rfl

/-- The sum of the exponentials of the shifted row. -/
theorem call1_v7_at (x : (⟨S8192x512, .f32⟩ : BufTy).Contents (Elt Ideal)) (z : Fin 1) :
    val_main_call1_v7 (F := Ideal) x (ix1 z) = Z (colR (val_main_v7 (F := Ideal) x)) (fmax (colR (val_main_v7 (F := Ideal) x))) := by
  rw [val_main_call1_v7_apply, val_main_call1_cst_1_apply, Ideal.ofBits_def, Ideal.ofBits_zero_f32, zero_add]
  unfold Z
  refine Finset.sum_congr rfl fun k _ => ?_
  have e : idx_main_call1_v7 (ix1 z) k = ix2 z k :=
    funext fun a => Fin.ext (by match a with | ⟨0, _⟩ => rfl | ⟨1, _⟩ => rfl)
  rw [e, val_main_call1_v6_apply, Ideal.hostUnary_exp_def, call1_v5_at]

/-- The logarithm of that sum, broadcast along the row. -/
theorem call1_v10_at (x : (⟨S8192x512, .f32⟩ : BufTy).Contents (Elt Ideal)) (z : Fin 1) (d : Fin 8192) :
    val_main_call1_v10 (F := Ideal) x (ix2 z d) = Ideal.log (Z (colR (val_main_v7 (F := Ideal) x)) (fmax (colR (val_main_v7 (F := Ideal) x)))) := by
  rw [val_main_call1_v10_apply, val_main_call1_v9_apply, Ideal.hostUnary_log_def, val_main_call1_v8_apply]
  have e : idx_main_call1_v8 (idx_main_call1_v10 (ix2 z d)) = ix1 (0 : Fin 1) :=
    funext fun a => Fin.ext (by match a with | ⟨0, _⟩ => rfl)
  rw [e, call1_v7_at]

/-- Stage v18, the log-softmax of the row of column sums at d. -/
theorem v18_at (x : (⟨S8192x512, .f32⟩ : BufTy).Contents (Elt Ideal)) (z : Fin 1) (d : Fin 8192) :
    val_main_v18 (F := Ideal) x (ix2 z d)
      = shift (colR (val_main_v7 (F := Ideal) x)) (fmax (colR (val_main_v7 (F := Ideal) x))) d - Ideal.log (Z (colR (val_main_v7 (F := Ideal) x)) (fmax (colR (val_main_v7 (F := Ideal) x)))) := by
  rw [val_main_v18_apply, Ideal.subf_def, call1_v5_at, call1_v10_at]

/-- Stage v22: the entropy - Σ exp(lp)·lp of the softmax of the column sums. -/
theorem v22_at (x : (⟨S8192x512, .f32⟩ : BufTy).Contents (Elt Ideal)) (z : Fin 1) :
    val_main_v22 (F := Ideal) x (ix1 z) = entR (colR (val_main_v7 (F := Ideal) x)) (fmax (colR (val_main_v7 (F := Ideal) x))) := by
  rw [val_main_v22_apply, Ideal.hostNegf_def, Ideal.negf_def, val_main_v21_apply, val_main_cst_5_apply,
    Ideal.ofBits_def, Ideal.ofBits_zero_f32, zero_add]
  unfold entR
  refine congrArg Neg.neg (Finset.sum_congr rfl fun k _ => ?_)
  have e : idx_main_v21 (ix1 z) k = ix2 z k :=
    funext fun a => Fin.ext (by match a with | ⟨0, _⟩ => rfl | ⟨1, _⟩ => rfl)
  rw [e, val_main_v20_apply, Ideal.mulf_def, val_main_v19_apply, Ideal.hostUnary_exp_def, v18_at]

/-! ### The result -/

/-- The reference program's result at its one index is the loss lossR of the normalized matrix: the mean of the
    row entropies plus the entropy of the column sums. -/
theorem ref_value (x : (⟨Cert.ReferenceIdeal.S8192x512, .f32⟩ : BufTy).Contents (Elt Ideal)) :
    Cert.ReferenceIdeal.ReadP.val_main_v25 (F := Ideal) x ValueIdx.ix0
      = Cert.Spec.lossR (Cert.ReferenceIdeal.ReadP.val_main_v7 (F := Ideal) x) := by
  rw [val_main_v25_apply, val_main_cst_6_apply, Ideal.ofBits_def, Ideal.ofBits_zero_f32, zero_add, sum_idx1,
    Fin.sum_univ_one, val_main_v24_apply, Ideal.addf_def, val_main_v23_apply, v22_at]
  have e : idx_main_v23 (ix1 (0 : Fin 1)) = ix0 := rfl
  rw [e, v17_at]
  unfold lossR
  rfl

end Cert.ReferenceIdeal.RefValue

end
-- ==== Proof.NormReal.lean ====
/-
  The normalized prototype matrix is a matrix of reals when the prototypes are.

  Entry (c, e) of the normalized matrix is x c e / max (√(∑ k, (x c k)²)) ε with ε the positive real the word of 1e-12
  denotes. For real x the sum of squares is a nonnegative real, its square root a real, the larger of it and ε a positive
  real, and the quotient a real.
-/
import proofs.«125946_j49383533969545_2_alg».proof.Proof.RefRead
import proofs.«125946_j49383533969545_2_alg».proof.Proof.LibEntropy

noncomputable section

namespace Cert.ReferenceIdeal.NormReal

open Cert.ReferenceIdeal Cert.ReferenceIdeal.Gen Cert.ReferenceIdeal.ReadP Idealize.ShloMosaic Idealize.ShloMosaic.ValueIdx

/-- A real divided by the larger of the Euclidean norm of a real vector and a positive real floor is a real. -/
theorem div_norm_real (a : ℝ) (y : Fin 512 → ℝ) (eps : ℝ) (heps : 0 < eps) :
    Ideal.div (a : EReal) (max (Ideal.sqrt ((0 : EReal) + ∑ e, (y e : EReal) * (y e : EReal))) (eps : EReal))
      = ((a / max (Real.sqrt (∑ e, y e * y e)) eps : ℝ) : EReal) := by
  have hnn : ¬ (∑ e, y e * y e) < 0 := not_lt.2 (Finset.sum_nonneg (fun e _ => mul_self_nonneg _))
  have hpos : 0 < max (Real.sqrt (∑ e, y e * y e)) eps := lt_of_lt_of_le heps (le_max_right _ _)
  simp only [zero_add, ← EReal.coe_mul, ← Cert.Entropy.coe_sum_univ]
  rw [Ideal.sqrt_coe, if_neg hnn, ← EReal.coe_strictMono.monotone.map_max, Ideal.div_coe hpos.ne',
    ← EReal.coe_mul, ← div_eq_mul_one_div]

/-- Every entry of the normalized matrix of a real matrix is a real. -/
theorem norm_real (x : (⟨S8192x512, .f32⟩ : BufTy).Contents (Elt Ideal)) (hx : ∀ i : S8192x512.Idx, ∃ r : ℝ, x i = (r : EReal)) :
    ∀ i : S8192x512.Idx, ∃ r : ℝ, val_main_v7 (F := Ideal) x i = (r : EReal) := by
  choose xr hxr using hx
  obtain ⟨eps, heps, he⟩ := Cert.Entropy.eps_real
  intro i
  simp only [val_main_v7_apply, val_main_v6_apply, val_main_v5_apply, val_main_v3_apply, val_main_v2_apply, val_main_v1_apply,
    val_main_v4_apply, val_main_cst_0_apply, val_main_cst_apply, val_main_v0_apply, Ideal.hostDivf_def, Ideal.maximumf_def,
    Ideal.hostUnary_sqrt_def, Ideal.mulf_def, Ideal.ofBits_def, Ideal.ofBits_zero_f32, he, hxr]
  exact ⟨_, div_norm_real (xr i) (fun k : Fin 512 => xr (idx_main_v1 (idx_main_v2 (idx_main_v6 i)) k)) eps heps⟩

end Cert.ReferenceIdeal.NormReal

end
-- ==== Proof.Finite.lean ====
/- From the precondition "every entry of the input has absolute value below +∞" to "every entry of the
   input is a real": the precondition is the conjunction, over all entries, of the comparison |x i| < +∞ on the
   extended reals, and an extended real whose absolute value is below +∞ is neither -∞ nor +∞. -/
import proofs.«125946_j49383533969545_2_alg».proof.Pre_finite_inputs
import Idealize.ShloMosaic.Lib.ReduceAll
import Idealize.ShloMosaic.Lib.ValueIdx
import Idealize.ShloMosaic.PureOps.Ideal.Laws

noncomputable section

namespace Cert.Finite

open Idealize.ShloMosaic

/-- The single-precision word 0x7F800000 (sign 0, exponent field all ones, fraction 0) denotes +∞. -/
theorem ofBits_inf : Ideal.ofBits .f32 0x7F800000#32 = ⊤ := by
  simp [Ideal.ofBits, Ideal.ieee]

/-- An extended real whose absolute value max x (-x) is below +∞ is a real: at -∞ and at +∞ the absolute value
    is +∞. -/
theorem real_of_abs_lt_top (x : EReal) (h : max x (-x) < ⊤) : ∃ r : ℝ, x = (r : EReal) := by
  induction x using EReal.rec with
  | bot => simp at h
  | coe r => exact ⟨r, rfl⟩
  | top => simp at h

/-- A one-bit word made from a truth value is 1 only when the truth value is true. -/
theorem ofBool_eq_one : ∀ b : Bool, BitVec.ofBool b = 1#1 → b = true := by decide

/-- The rank-0 shape has one index. -/
instance : Subsingleton Cert.Pre_finite_inputs.S_.Idx := ⟨fun a b => funext fun d => d.elim0⟩

/-- If the conjunction over all entries of |x i| < +∞ is true, every entry of x is a real. -/
theorem real_of_pre [Cert.Pre_finite_inputs.Facts] (x : FVec Ideal Cert.Pre_finite_inputs.S8192x512 .f32)
    (h : Cert.Pre_finite_inputs.fn (F := Ideal) x = fun _ => 1#1) :
    ∀ i : Cert.Pre_finite_inputs.S8192x512.Idx, ∃ r : ℝ, x i = (r : EReal) := by
  intro i
  have h0 := congrFun h ValueIdx.ix0
  dsimp only [Cert.Pre_finite_inputs.fn] at h0
  have hi := Host.reduce_andi_all _ _ _ _ _ h0 i
  change BitVec.ofBool (decide (max (x i) (-(x i)) < Ideal.ofBits .f32 0x7F800000#32)) = 1#1 at hi
  rw [ofBits_inf] at hi
  exact real_of_abs_lt_top _ (of_decide_eq_true (ofBool_eq_one _ hi))

end Cert.Finite

end
-- ==== Proof.lean ====
/-
  The certificate of the entropy-regularization loss kernel against its jnp reference.

  Both programs L2-normalize the 8192 prototype rows (the same ten host operations: P c e = x c e / max (‖x c‖) ε) and
  compute, with G = P·Pᵀ the Gram matrix and q its column sums,
        (∑ c, H (G c)) / 8192 + H q ,       H g the entropy of the softmax of g.
  The kernel program computes the row entropies H (G c) in one pallas_call — grid point t takes the 256 query rows
  256 t … 256 t + 255 against the whole matrix, forms their Gram rows on the matrix unit, and stores the entropies in the
  form log Z − W / Z — and the column-sum term on the host from q d = ∑ e, (∑ c, P c e) · P d e. The reference materializes
  G, takes q d = ∑ c, G c d and each entropy as −∑ exp(lp) · lp with lp the log-softmax. On finite inputs P is a matrix
  of reals and the two agree (Proof/Spec.lean).

  The frames: the kernel's two input windows stage ONE array, which the body only reads, so the array's share is dealt
  to them in halves and rejoined after the region (Proof/LibSharedFrame.lean, Proof/Kernel*/Launch.lean over the body's run
  in Proof/Kernel*/Body.lean); the reference's frame is its run with the result dropped (Proof/RefRun.lean).
  The values: what the region leaves in the vector of row entropies (Proof/KernelIdeal/PayValue.lean, BlockValue.lean),
  the lines after it read at the result's one index (Proof/KernelIdeal/TailValue.lean), the reference's result read at
  its one index (Proof/RefValue.lean over the stages of Proof/RefRead.lean), finiteness from the precondition
  (Proof/Finite.lean, Proof/NormReal.lean).
-/
import proofs.«125946_j49383533969545_2_alg».proof.Defs
import proofs.«125946_j49383533969545_2_alg».proof.Proof.Gen.Kernel
import proofs.«125946_j49383533969545_2_alg».proof.Proof.Gen.KernelIdeal
import proofs.«125946_j49383533969545_2_alg».proof.Proof.Gen.ReferenceIdeal
import proofs.«125946_j49383533969545_2_alg».proof.Proof.Gen.Pre_finite_inputs
import proofs.«125946_j49383533969545_2_alg».proof.Proof.Kernel.Launch
import proofs.«125946_j49383533969545_2_alg».proof.Proof.KernelIdeal.Launch
import proofs.«125946_j49383533969545_2_alg».proof.Proof.KernelIdeal.BlockValue
import proofs.«125946_j49383533969545_2_alg».proof.Proof.KernelIdeal.PreValue
import proofs.«125946_j49383533969545_2_alg».proof.Proof.KernelIdeal.TailValue
import proofs.«125946_j49383533969545_2_alg».proof.Proof.RefRun
import proofs.«125946_j49383533969545_2_alg».proof.Proof.RefValue
import proofs.«125946_j49383533969545_2_alg».proof.Proof.NormReal
import proofs.«125946_j49383533969545_2_alg».proof.Proof.Finite
import proofs.«125946_j49383533969545_2_alg».proof.Proof.Spec
import Idealize.ShloMosaic.Adequacy
import Idealize.ShloMosaic.Init

noncomputable section

namespace Cert.Proof

open Idealize.ShloMosaic Idealize.ShloMosaic.TcCoe Idealize.SL.Sem

/-! ## The frames -/

theorem frame_k : Cert.frame_Kernel := fun m ρ _ => Cert.Kernel.Frame.frame m ρ
theorem frame_ki : Cert.frame_KernelIdeal := fun m ρ _ => Cert.KernelIdeal.Frame.frame m ρ
theorem frame_ri : Cert.frame_ReferenceIdeal := fun m ρ _ =>
  (θ_run Cert.ReferenceIdeal.defs _ _).mono (fun _ h c => (h c).2) (Cert.ReferenceIdeal.RefRun.run (F := Ideal) m ρ)

/-- The ideal pass rewrote nothing: the idealization is the program's own text read at the ideal instance. -/
theorem preserves : Cert.preserves_Kernel_KernelIdeal := trivial

/-! ## The kernel program's result -/

section KernelValue

open Cert.KernelIdeal Cert.KernelIdeal.Gen Cert.KernelIdeal.Frame Cert.KernelIdeal.BlockValue

variable (m : (ℓ : Loc Cert.KernelIdeal.nD Cert.KernelIdeal.τ Cert.KernelIdeal.sig) → Buf (Elt Ideal) ℓ)

/-- The kernel program's result, at its one index, is the loss in the kernel's form of the normalized matrix: the
    region leaves the row entropies of the Gram matrix in the vector the tail sums, and the tail's column-sum term reads
    the same normalized matrix. -/
theorem kernel_value (c : Dev Cert.KernelIdeal.nD) :
    StableHlo.after (hostOps1 (F := Ideal)) (W m c) (Proc.devRef .tc main_v30) ValueIdx.ix0
      = Cert.Spec.lossK (Cert.ReferenceIdeal.ReadP.val_main_v7 (F := Ideal) (m ((c : Thread nD τ).loc main_arg0))) := by
  have h9 : W m c (Proc.devRef .tc main_v9) = Hrow (Cert.ReferenceIdeal.ReadP.val_main_v7 (F := Ideal) (m ((c : Thread nD τ).loc main_arg0))) := by
    rw [W_main_v9, BlockValue.final, Cert.KernelIdeal.PreValue.Pnorm_eq]
  have h7 : W m c (Proc.devRef .tc main_v7) = Cert.ReferenceIdeal.ReadP.val_main_v7 (F := Ideal) (m ((c : Thread nD τ).loc main_arg0)) := by
    rw [W_of_ne m c main_v7 (by decide), Cert.KernelIdeal.PreValue.V_main_v7]
  rw [Cert.KernelIdeal.TailValue.after_tail (W m c), h9, h7]
  unfold Cert.Spec.lossK
  refine congrArg (fun s => Ideal.div s _ + _) (Finset.sum_congr rfl fun n _ => ?_)
  exact (Hrow_apply _ (ValueIdx.ix2 n (0 : Fin 1)) n rfl).trans rfl

end KernelValue

/-! ## The two programs agree -/

/-- From memories agreeing on the prototypes, both programs run and end with the same extended real: the kernel program
    at the loss in its form, the reference at the loss in its, of one matrix of reals. -/
theorem algebraic : Cert.algebraic_KernelIdeal_ReferenceIdeal := by
  intro m ρ m' ρ' hpre hagree
  refine ⟨fun c => StableHlo.after (Cert.KernelIdeal.Gen.hostOps1 (F := Ideal)) (Cert.KernelIdeal.Frame.W m c) (Proc.devRef .tc Cert.KernelIdeal.main_v30),
    Cert.KernelIdeal.Frame.result m ρ, ?_⟩
  refine (θ_run Cert.ReferenceIdeal.defs _ _).mono (fun _ h c => ⟨(h c).1.trans ?_, (h c).2⟩)
    (Cert.ReferenceIdeal.RefRun.run (F := Ideal) m' ρ')
  rw [hagree c]
  funext i
  obtain rfl : i = ValueIdx.ix0 := funext fun d => d.elim0
  refine (Cert.ReferenceIdeal.RefValue.ref_value _).trans ?_
  refine Eq.trans ?_ (kernel_value m c).symm
  exact (Cert.Spec.lossK_eq_lossR _ (Cert.ReferenceIdeal.NormReal.norm_real _ (Cert.Finite.real_of_pre _ (hpre c)))).symm

/-! ## The claim -/

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
